-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x512x512 : Shape := ⟨3, ![8, 512, 512]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel

variable [Facts]

def fn {F : FTy → Type} [FloatOps F] (main_arg0 : FVec F S8x16x512x512 .f32) (main_arg1 : IVec S8x512x512 32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  main_v3
-- ==== Kernel.lean ====
abbrev S8x16x512x512 : Shape := ⟨4, ![8, 16, 512, 512]⟩
abbrev S8x512x512 : Shape := ⟨3, ![8, 512, 512]⟩
abbrev S8x3x16 : Shape := ⟨3, ![8, 3, 16]⟩
abbrev S1x16x128x512 : Shape := ⟨4, ![1, 16, 128, 512]⟩
abbrev S1x128x512 : Shape := ⟨3, ![1, 128, 512]⟩
abbrev S1x3x16 : Shape := ⟨3, ![1, 3, 16]⟩
abbrev S1x1x128x512 : Shape := ⟨4, ![1, 1, 128, 512]⟩
abbrev S1 : Shape := ⟨1, ![1]⟩
abbrev S1x1x1x1 : Shape := ⟨4, ![1, 1, 1, 1]⟩
abbrev S16 : Shape := ⟨1, ![16]⟩
abbrev S1x1x16 : Shape := ⟨3, ![1, 1, 16]⟩
abbrev S_ : Shape := ⟨0, ![]⟩
abbrev S3x16 : Shape := ⟨2, ![3, 16]⟩
abbrev S1x16 : Shape := ⟨2, ![1, 16]⟩

abbrev nBuf : Space → Nat
  | .hbm => 29
  | .vmem => 6
  | .smem => 0
  | _ => 0

abbrev bufTy : (tb : Table) → Fin (tcTables nBuf tb) → BufTy
  | .hbm, ⟨0, _⟩ => ⟨S8x16x512x512, .f32⟩
  | .hbm, ⟨1, _⟩ => ⟨S8x512x512, .i32⟩
  | .hbm, ⟨2, _⟩ => ⟨S8x3x16, .f32⟩
  | .hbm, ⟨3, _⟩ => ⟨S_, .f32⟩
  | .hbm, ⟨4, _⟩ => ⟨S3x16, .f32⟩
  | .hbm, ⟨5, _⟩ => ⟨S1x16, .f32⟩
  | .hbm, ⟨6, _⟩ => ⟨S16, .f32⟩
  | .hbm, ⟨7, _⟩ => ⟨S1x16, .f32⟩
  | .hbm, ⟨8, _⟩ => ⟨S16, .f32⟩
  | .hbm, ⟨9, _⟩ => ⟨S1x16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1x16x128x512, .f32⟩
  | .local _ .vmem, ⟨1, _⟩ => ⟨S1x16x128x512, .f32⟩
  | .local _ .vmem, ⟨2, _⟩ => ⟨S1x128x512, .i32⟩
  | .local _ .vmem, ⟨3, _⟩ => ⟨S1x128x512, .i32⟩
  | .local _ .vmem, ⟨4, _⟩ => ⟨S1x3x16, .f32⟩
  | .local _ .vmem, ⟨5, _⟩ => ⟨S1x3x16, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x3x16_S1x3x16_0_0_0 : ∀ a, (![0, 0, 0] : Fin 3 → Nat) a + S1x3x16.size a ≤ S1x3x16.size a
  h_S1x3x16 : 0 < S1x3x16.numel
  inb_S1x16x128x512_S1x16x128x512_0_0_0_0 : ∀ a, (![0, 0, 0, 0] : Fin 4 → Nat) a + S1x16x128x512.size a ≤ S1x16x128x512.size a
  h_S1x16x128x512 : 0 < S1x16x128x512.numel
  inb_S1x128x512_S1x128x512_0_0_0 : ∀ a, (![0, 0, 0] : Fin 3 → Nat) a + S1x128x512.size a ≤ S1x128x512.size a
  h_S1x128x512 : 0 < S1x128x512.numel
  reduces_S1x16x128x512_S1x128x512 : S1x16x128x512.Reduces [1] S1x128x512
  shapeCasts_S1x128x512_S1x1x128x512 : S1x128x512.ShapeCasts S1x1x128x512
  broadcasts_S1x1x128x512_S1x16x128x512 : S1x1x128x512.Broadcasts S1x16x128x512
  slices_S1x16x128x512_o0_0_0_0_S1x1x128x512 : S1x16x128x512.Slices ![0, 0, 0, 0] S1x1x128x512
  shapeCasts_S1x1x128x512_S1x128x512 : S1x1x128x512.ShapeCasts S1x128x512
  natLt_1_32 : 1 < 32
  reduces_S1x1x128x512_S1 : S1x1x128x512.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  slices_S1x16x128x512_o0_1_0_0_S1x1x128x512 : S1x16x128x512.Slices ![0, 1, 0, 0] S1x1x128x512
  slices_S1x16x128x512_o0_2_0_0_S1x1x128x512 : S1x16x128x512.Slices ![0, 2, 0, 0] S1x1x128x512
  slices_S1x16x128x512_o0_3_0_0_S1x1x128x512 : S1x16x128x512.Slices ![0, 3, 0, 0] S1x1x128x512
  slices_S1x16x128x512_o0_4_0_0_S1x1x128x512 : S1x16x128x512.Slices ![0, 4, 0, 0] S1x1x128x512
  slices_S1x16x128x512_o0_5_0_0_S1x1x128x512 : S1x16x128x512.Slices ![0, 5, 0, 0] S1x1x128x512
  slices_S1x16x128x512_o0_6_0_0_S1x1x128x512 : S1x16x128x512.Slices ![0, 6, 0, 0] S1x1x128x512
  slices_S1x16x128x512_o0_7_0_0_S1x1x128x512 : S1x16x128x512.Slices ![0, 7, 0, 0] S1x1x128x512
  slices_S1x16x128x512_o0_8_0_0_S1x1x128x512 : S1x16x128x512.Slices ![0, 8, 0, 0] S1x1x128x512
  slices_S1x16x128x512_o0_9_0_0_S1x1x128x512 : S1x16x128x512.Slices ![0, 9, 0, 0] S1x1x128x512
  slices_S1x16x128x512_o0_10_0_0_S1x1x128x512 : S1x16x128x512.Slices ![0, 10, 0, 0] S1x1x128x512
  slices_S1x16x128x512_o0_11_0_0_S1x1x128x512 : S1x16x128x512.Slices ![0, 11, 0, 0] S1x1x128x512
  slices_S1x16x128x512_o0_12_0_0_S1x1x128x512 : S1x16x128x512.Slices ![0, 12, 0, 0] S1x1x128x512
  slices_S1x16x128x512_o0_13_0_0_S1x1x128x512 : S1x16x128x512.Slices ![0, 13, 0, 0] S1x1x128x512
  slices_S1x16x128x512_o0_14_0_0_S1x1x128x512 : S1x16x128x512.Slices ![0, 14, 0, 0] S1x1x128x512
  slices_S1x16x128x512_o0_15_0_0_S1x1x128x512 : S1x16x128x512.Slices ![0, 15, 0, 0] S1x1x128x512
  concatenates_S1_S1_S1_S1_S1_S1_S1_S1_S1_S1_S1_S1_S1_S1_S1_S1_S16_d0 : Shape.Concatenates [S1, S1, S1, S1, S1, S1, S1, S1, S1, S1, S1, S1, S1, S1, S1, S1] S16 0
  inb_S1x3x16_S1x1x16_0_0_0 : ∀ a, (![0, 0, 0] : Fin 3 → Nat) a + S1x1x16.size a ≤ S1x3x16.size a
  h_S1x1x16 : 0 < S1x1x16.numel
  shapeCasts_S1x1x16_S16 : S1x1x16.ShapeCasts S16
  shapeCasts_S16_S1x1x16 : S16.ShapeCasts S1x1x16
  inb_S1x3x16_S1x1x16_0_1_0 : ∀ a, (![0, 1, 0] : Fin 3 → Nat) a + S1x1x16.size a ≤ S1x3x16.size a
  inb_S1x3x16_S1x1x16_0_2_0 : ∀ a, (![0, 2, 0] : Fin 3 → Nat) a + S1x1x16.size a ≤ S1x3x16.size a
  reducesTo_S8x3x16_S3x16_d0 : S8x3x16.ReducesTo [0] S3x16
  h_S_ : 0 < S_.numel
  slices_S3x16_S1x16_0_0 : S3x16.Slices ![0, 0] S1x16
  shapeCasts_S1x16_S16 : S1x16.ShapeCasts S16
  slices_S3x16_S1x16_1_0 : S3x16.Slices ![1, 0] S1x16
  slices_S3x16_S1x16_2_0 : S3x16.Slices ![2, 0] S1x16
  bcast_S_S16 : S_.BroadcastsInDim S16 (![] : Fin 0 → Fin S16.rank)
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x512.size a ≤ S8x16x512x512.size a
  hwx0_0 : ∀ i : grid0.Coords, EltTy.bits .f32 = 32 ∨ (Rect.block (s := S8x16x512x512) S1x16x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x16.size a ≤ S8x3x16.size a
  hwx0_2 : ∀ i : grid0.Coords, EltTy.bits .f32 = 32 ∨ (Rect.block (s := S8x3x16) S1x3x16.size (cc0_transform_2 i) (hinb0_2 i)).WholeWords (EltTy.packing .f32)

variable [Facts₀]

abbrev win0_0 : Pipeline.Window sig grid0 :=
  Pipeline.Window.ofSpec (Memref.whole main_arg0) S1x16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S8x512x512 : Shape := ⟨3, ![8, 512, 512]⟩
abbrev S_ : Shape := ⟨0, ![]⟩
abbrev S8x1x512x512 : Shape := ⟨4, ![8, 1, 512, 512]⟩
abbrev S1x16x1x1 : Shape := ⟨4, ![1, 16, 1, 1]⟩
abbrev S16 : Shape := ⟨1, ![16]⟩

abbrev nBuf : Space → Nat
  | .hbm => 58
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x16x512x512, .f32⟩
  | .hbm, ⟨9, _⟩ => ⟨S8x16x512x512, .f32⟩
  | .hbm, ⟨10, _⟩ => ⟨S8x16x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x16x512x512, .f32⟩
  | .hbm, ⟨15, _⟩ => ⟨S8x16x512x512, .f32⟩
  | .hbm, ⟨16, _⟩ => ⟨S_, .i32⟩
  | .hbm, ⟨17, _⟩ => ⟨S8x512x512, .i32⟩
  | .hbm, ⟨18, _⟩ => ⟨S8x512x512, .i1⟩
  | .hbm, ⟨19, _⟩ => ⟨S_, .i32⟩
  | .hbm, ⟨20, _⟩ => ⟨S_, .i32⟩
  | .hbm, ⟨21, _⟩ => ⟨S8x512x512, .i32⟩
  | .hbm, ⟨22, _⟩ => ⟨S8x512x512, .i32⟩
  | .hbm, ⟨23, _⟩ => ⟨S8x1x512x512, .i32⟩
  | .hbm, ⟨24, _⟩ => ⟨S1x16x1x1, .i32⟩
  | .hbm, ⟨25, _⟩ => ⟨S8x16x512x512, .i32⟩
  | .hbm, ⟨26, _⟩ => ⟨S8x16x512x512, .i32⟩
  | .hbm, ⟨27, _⟩ => ⟨S8x16x512x512, .i1⟩
  | .hbm, ⟨28, _⟩ => ⟨S8x16x512x512, .f32⟩
  | .hbm, ⟨29, _⟩ => ⟨S8x1x512x512, .i1⟩
  | .hbm, ⟨30, _⟩ => ⟨S8x1x512x512, .f32⟩
  | .hbm, ⟨31, _⟩ => ⟨S8x16x512x512, .f32⟩
  | .hbm, ⟨32, _⟩ => ⟨S8x16x512x512, .f32⟩
  | .hbm, ⟨33, _⟩ => ⟨S8x16x512x512, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩

abbrev nD : Nat := 1
abbrev τ : Topo := Topo.v7x

variable {F : FTy → Type} [FloatOps F]

class Facts₀ : Prop where
  reducesTo_S8x16x512x512_S8x512x512_d1 : S8x16x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x16x512x512_0_1_2_3 : S8x1x512x512.BroadcastsInDim S8x16x512x512 (![0, 1, 2, 3] : Fin 4 → Fin S8x16x512x512.rank)
  bcast_S1x16x1x1_S8x16x512x512_0_1_2_3 : S1x16x1x1.BroadcastsInDim S8x16x512x512 (![0, 1, 2, 3] : Fin 4 → Fin S8x16x512x512.rank)
  reducesTo_S8x16x512x512_S16_d0_2_3 : S8x16x512x512.ReducesTo [0, 2, 3] S16
  bcast_S_S16 : S_.BroadcastsInDim S16 (![] : Fin 0 → Fin S16.rank)
  reducesTo_S16_S_d0 : S16.ReducesTo [0] S_

variable [Facts₀]

class Facts : Prop extends Facts₀ where

variable [Facts]
-- ==== Proof.KTerms.lean ====
/-
  The three sixteen-entry vectors one grid point adds into the rows of its [3, 16] result block, named as the
  body's own terms of the point's logits block `x0` and targets block `x1`: entry `c` of `psumV` is the sum over
  the block's pixels of the softmax weight of class `c`, of `tsumV` the sum of the class-`c` indicator, and
  `interV` is the row-0 contents `r0` plus, at entry `c`, the sum of weight times indicator.
-/
import proofs.«169285_j38766374814163_1_alg».proof.Proof.Gen.KernelIdeal.Skeleton

noncomputable section

namespace Cert.KernelIdeal.Terms

open Idealize.ShloMosaic Cert.KernelIdeal Cert.KernelIdeal.Gen

variable {F : FTy → Type} [FloatOps F]

/-- Entry `c`: the sum over the block of the softmax weight of class `c`. -/
def psumV (x0 : Vec F S1x16x128x512 .f32) : FVec F S16 .f32 :=
  k0_pay90 (k0_pay11 x0) (k0_pay16 (k0_pay13 x0)) (k0_pay21 (k0_pay5 x0)) (k0_pay26 (k0_pay23 (k0_pay5 x0)))
    (k0_pay31 (k0_pay5 x0)) (k0_pay36 (k0_pay5 x0)) (k0_pay41 (k0_pay38 (k0_pay5 x0))) (k0_pay46 (k0_pay5 x0))
    (k0_pay51 (k0_pay48 (k0_pay5 x0))) (k0_pay56 (k0_pay5 x0)) (k0_pay61 (k0_pay5 x0)) (k0_pay66 (k0_pay63 (k0_pay5 x0)))
    (k0_pay71 (k0_pay5 x0)) (k0_pay76 (k0_pay73 (k0_pay5 x0))) (k0_pay81 (k0_pay5 x0)) (k0_pay86 (k0_pay5 x0))

/-- Entry `c`: the sum over the block of the class-`c` indicator. -/
def tsumV (x1 : Vec F S1x128x512 .i32) : FVec F S16 .f32 :=
  k0_pay91 (k0_pay12 x1) (k0_pay17 (k0_pay6 x1) (k0_pay7 x1)) (k0_pay22 (k0_pay6 x1) (k0_pay7 x1))
    (k0_pay27 (k0_pay24 (k0_pay6 x1) (k0_pay7 x1))) (k0_pay32 (k0_pay6 x1) (k0_pay7 x1)) (k0_pay37 (k0_pay6 x1) (k0_pay7 x1))
    (k0_pay42 (k0_pay6 x1) (k0_pay7 x1)) (k0_pay47 (k0_pay6 x1) (k0_pay7 x1)) (k0_pay52 (k0_pay49 (k0_pay6 x1) (k0_pay7 x1)))
    (k0_pay57 (k0_pay6 x1) (k0_pay7 x1)) (k0_pay62 (k0_pay6 x1) (k0_pay7 x1)) (k0_pay67 (k0_pay6 x1) (k0_pay7 x1))
    (k0_pay72 (k0_pay6 x1) (k0_pay7 x1)) (k0_pay77 (k0_pay74 (k0_pay6 x1) (k0_pay7 x1))) (k0_pay82 (k0_pay6 x1) (k0_pay7 x1))
    (k0_pay87 (k0_pay6 x1) (k0_pay7 x1))

/-- The row-0 contents `r0` plus, at entry `c`, the sum over the block of weight times indicator. -/
def interV (x0 : Vec F S1x16x128x512 .f32) (x1 : Vec F S1x128x512 .i32) (r0 : Vec F S1x1x16 .f32) : FVec F S16 .f32 :=
  k0_pay92 (k0_pay20 (k0_pay5 x0) (k0_pay6 x1) (k0_pay7 x1)) (k0_pay25 (k0_pay5 x0) (k0_pay6 x1) (k0_pay7 x1))
    (k0_pay30 (k0_pay5 x0) (k0_pay6 x1) (k0_pay7 x1)) (k0_pay35 (k0_pay5 x0) (k0_pay6 x1) (k0_pay7 x1))
    (k0_pay40 (k0_pay6 x1) (k0_pay7 x1) (k0_pay38 (k0_pay5 x0))) (k0_pay45 (k0_pay5 x0) (k0_pay6 x1) (k0_pay7 x1))
    (k0_pay50 (k0_pay5 x0) (k0_pay6 x1) (k0_pay7 x1)) (k0_pay55 (k0_pay5 x0) (k0_pay6 x1) (k0_pay7 x1))
    (k0_pay60 (k0_pay5 x0) (k0_pay6 x1) (k0_pay7 x1)) (k0_pay65 (k0_pay6 x1) (k0_pay7 x1) (k0_pay63 (k0_pay5 x0)))
    (k0_pay70 (k0_pay5 x0) (k0_pay6 x1) (k0_pay7 x1)) (k0_pay75 (k0_pay5 x0) (k0_pay6 x1) (k0_pay7 x1))
    (k0_pay80 (k0_pay5 x0) (k0_pay6 x1) (k0_pay7 x1)) (k0_pay85 (k0_pay5 x0) (k0_pay6 x1) (k0_pay7 x1))
    (k0_pay88 (k0_pay10 x0 x1)) (k0_pay89 (k0_pay15 (k0_pay6 x1) (k0_pay7 x1) (k0_pay13 x0))) r0

end Cert.KernelIdeal.Terms

end
-- ==== Proof.KPieces.lean ====
/-
  What one grid point leaves in its [1, 3, 16] result block, read at an index.

  The body's last three stores each write one row `k` of the block: row `0` takes the vector `interV` (which
  already holds the row's earlier contents plus the per-class sums of weight times indicator), rows `1` and
  `2` take the row's earlier contents plus `psumV` and `tsumV`. At the first point of a batch element's run the
  body first stores the zero block, so the earlier contents the rows read back are zeros; at the later points
  they are what the point before left.
-/
import proofs.«169285_j38766374814163_1_alg».proof.Proof.Gen.KernelIdeal.Frame
import proofs.«169285_j38766374814163_1_alg».proof.Proof.KTerms
import Idealize.ShloMosaic.Lib.Pipeline.Value
import Idealize.ShloMosaic.Lib.ValueIdx
import Idealize.ShloMosaic.Lib.Tactic

noncomputable section

namespace Cert.KernelIdeal.Pieces

open Idealize.ShloMosaic Idealize.ShloMosaic.TcCoe Idealize.SL.Sem Idealize.ShloMosaic.ValueIdx
open Cert.KernelIdeal Cert.KernelIdeal.Gen

/-! ## The row payloads at an index -/

theorem pos_row (cls : Fin 16) :
    (S16.rowMajor (ix1 cls)).val = (S1x1x16.rowMajor (ix3 (0 : Fin 1) (0 : Fin 1) cls)).val := by
  rw [Shape.rowMajor_val_one, Shape.rowMajor_val_three]
  simp

/-- A [16] vector recast as a [1, 1, 16] row reads entry `cls` at `(0, 0, cls)`. -/
theorem cast_row (V : S16.Idx → EReal) (h : S16.ShapeCasts S1x1x16) (cls : Fin 16) :
    shapeCast S1x1x16 V h (ix3 0 0 cls) = V (ix1 cls) :=
  shapeCast_apply V h (ix3 0 0 cls) (ix1 cls) (pos_row cls)

/-- and back. -/
theorem cast_vec (r : S1x1x16.Idx → EReal) (h : S1x1x16.ShapeCasts S16) (cls : Fin 16) :
    shapeCast S16 r h (ix1 cls) = r (ix3 0 0 cls) :=
  shapeCast_apply r h (ix1 cls) (ix3 0 0 cls) (pos_row cls).symm

/-- Row `0`'s payload: the vector itself. -/
theorem pay1_apply (V : FVec Ideal S16 .f32) (cls : Fin 16) :
    k0_pay1 (F := Ideal) V (ix3 0 0 cls) = V (ix1 cls) := by
  unfold k0_pay1
  exact cast_row V _ cls

/-- Rows `1` and `2`'s payloads: the row read before the store plus the vector. -/
theorem pay2_apply (V : FVec Ideal S16 .f32) (r : Vec Ideal S1x1x16 .f32) (cls : Fin 16) :
    k0_pay2 (F := Ideal) V r (ix3 0 0 cls) = r (ix3 0 0 cls) + V (ix1 cls) := by
  unfold k0_pay2
  refine (cast_row _ _ cls).trans ?_
  refine (addf_apply _ _ _).trans ?_
  exact congrArg (· + V (ix1 cls)) (cast_vec r _ cls)

theorem pay3_apply (V : FVec Ideal S16 .f32) (r : Vec Ideal S1x1x16 .f32) (cls : Fin 16) :
    k0_pay3 (F := Ideal) V r (ix3 0 0 cls) = r (ix3 0 0 cls) + V (ix1 cls) := by
  unfold k0_pay3
  refine (cast_row _ _ cls).trans ?_
  refine (addf_apply _ _ _).trans ?_
  exact congrArg (· + V (ix1 cls)) (cast_vec r _ cls)

/-! ## The rows' rectangles -/

/-- Row `k`'s rectangle sends its local index `(0, 0, cls)` to `(0, k, cls)` of the block. -/
theorem emb_row (k : ℕ) (hk : k < 3) (sz : Fin 3 → ℕ) (hsz : sz = ![1, 1, 16])
    (inb : ∀ a, (![0, k, 0] : Fin 3 → ℕ) a + sz a ≤ S1x3x16.size a) (x : (⟨3, sz⟩ : Shape).Idx) (cls : Fin 16)
    (hx : ∀ a, (x a).val = (ix3 (0 : Fin 1) (0 : Fin 1) cls a).val) :
    (Rect.unit (s := S1x3x16) ![0, k, 0] sz inb).emb x = ix3 0 ⟨k, hk⟩ cls := by
  subst hsz
  funext a
  apply Fin.ext
  rw [Rect.emb_apply]
  match a with
  | ⟨0, _⟩ => have := hx 0; simp_all
  | ⟨1, _⟩ => have := hx 1; simp_all
  | ⟨2, _⟩ => have := hx 2; simp_all

/-- The same through the rectangle as a load's box. -/
theorem idx_row (k : ℕ) (hk : k < 3) (sz : Fin 3 → ℕ) (hsz : sz = ![1, 1, 16])
    (inb : ∀ a, (![0, k, 0] : Fin 3 → ℕ) a + sz a ≤ S1x3x16.size a) (x : (⟨3, sz⟩ : Shape).Idx) (cls : Fin 16)
    (hx : ∀ a, (x a).val = (ix3 (0 : Fin 1) (0 : Fin 1) cls a).val) :
    (Rect.unit (s := S1x3x16) ![0, k, 0] sz inb).toLoadRect.idx x = ix3 0 ⟨k, hk⟩ cls :=
  emb_row k hk sz hsz inb x cls hx

/-- Row `j`'s rectangle does not hold an index of another row `k`. -/
theorem not_mem_row (j k : ℕ) (hjk : j ≠ k) (hk : k < 3) (sz : Fin 3 → ℕ) (hsz : sz = ![1, 1, 16])
    (inb : ∀ a, (![0, j, 0] : Fin 3 → ℕ) a + sz a ≤ S1x3x16.size a) (cls : Fin 16) :
    ix3 (0 : Fin 1) (⟨k, hk⟩ : Fin 3) cls ∉ (Rect.unit (s := S1x3x16) ![0, j, 0] sz inb).set := by
  subst hsz
  rw [Rect.mem_set_unit]
  intro h
  have := h 1
  simp at this
  omega

/-! ## The canon of row stores at an index -/

/-- A piece of the [1, 3, 16] block at the ideal values. -/
abbrev Pc := View.Piece (Elt Ideal) S1x3x16 .f32

/-- Under a last store of row `k`, index `(0, k, cls)` holds that store's payload at `(0, 0, cls)`. -/
theorem canon_hit (k : ℕ) (hk : k < 3) (inb : ∀ a, (![0, k, 0] : Fin 3 → ℕ) a + (![1, 1, 16] : Fin 3 → ℕ) a ≤ S1x3x16.size a)
    (p : (⟨3, ![1, 1, 16]⟩ : Shape).Idx → EReal) (rest : List Pc) (cls : Fin 16) :
    View.canon ((⟨Rect.unit (s := S1x3x16) ![0, k, 0] ![1, 1, 16] inb, p⟩ : Pc) :: rest) (ix3 0 ⟨k, hk⟩ cls) = p (ix3 0 0 cls) := by
  rw [← emb_row k hk ![1, 1, 16] rfl inb (ix3 0 0 cls) cls (fun _ => rfl)]
  exact View.canon_cons_emb _ _ _ _

/-- A last store of another row `j` leaves index `(0, k, cls)` as the earlier stores left it. -/
theorem canon_skip (j k : ℕ) (hjk : j ≠ k) (hk : k < 3) (inb : ∀ a, (![0, j, 0] : Fin 3 → ℕ) a + (![1, 1, 16] : Fin 3 → ℕ) a ≤ S1x3x16.size a)
    (p : (⟨3, ![1, 1, 16]⟩ : Shape).Idx → EReal) (rest : List Pc) (cls : Fin 16) :
    View.canon ((⟨Rect.unit (s := S1x3x16) ![0, j, 0] ![1, 1, 16] inb, p⟩ : Pc) :: rest) (ix3 0 ⟨k, hk⟩ cls)
      = View.canon rest (ix3 0 ⟨k, hk⟩ cls) :=
  View.canon_cons_of_not_mem _ _ (not_mem_row j k hjk hk ![1, 1, 16] rfl inb cls)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The zero block the first point of a run stores, at any index. -/
theorem pay4_apply (y : S1x3x16.Idx) : k0_pay4 (F := Ideal) y = Ideal.ofBits .f32 0x00000000#32 := rfl

/-- Row `k` of the block's earlier contents `xo`, loaded through the row's rectangle, at `(0, 0, cls)`. -/
theorem ld_row (xo : Vec Ideal S1x3x16 .f32) (k : ℕ) (hk : k < 3) (sz : Fin 3 → ℕ) (hsz : sz = ![1, 1, 16])
    (inb : ∀ a, (![0, k, 0] : Fin 3 → ℕ) a + sz a ≤ S1x3x16.size a) (x : (⟨3, sz⟩ : Shape).Idx) (cls : Fin 16)
    (hx : ∀ a, (x a).val = (ix3 (0 : Fin 1) (0 : Fin 1) cls a).val) :
    View.ld xo (Rect.unit (s := S1x3x16) ![0, k, 0] sz inb) x = xo (ix3 0 ⟨k, hk⟩ cls) := by
  show xo ((Rect.unit (s := S1x3x16) ![0, k, 0] sz inb).emb x) = _
  rw [emb_row k hk sz hsz inb x cls hx]

end Cert.KernelIdeal.Pieces

end
-- ==== Proof.KCaseA.lean ====
/-
  The first point of a batch element's run: the body stores the zero block, then adds the point's three
  vectors to its rows, each row read back from what was stored so far — the zeros, since the stores of the
  other rows do not touch it.
-/
import proofs.«169285_j38766374814163_1_alg».proof.Proof.KPieces

noncomputable section

namespace Cert.KernelIdeal.Pieces

open Idealize.ShloMosaic Idealize.ShloMosaic.TcCoe Idealize.SL.Sem Idealize.ShloMosaic.ValueIdx
open Cert.KernelIdeal Cert.KernelIdeal.Gen

/-- Under a last store of the whole block, every index holds that store's payload. -/
theorem canon_whole (inb : ∀ a, (![0, 0, 0] : Fin 3 → ℕ) a + S1x3x16.size a ≤ S1x3x16.size a)
    (p : S1x3x16.Idx → EReal) (rest : List Pc) (y : S1x3x16.Idx) :
    View.canon ((⟨Rect.unit (s := S1x3x16) ![0, 0, 0] S1x3x16.size inb, p⟩ : Pc) :: rest) y = p y :=
  congrFun (View.canon_cons_unit_zero (Val := Elt Ideal) (S := S1x3x16) hz3 inb p rest) y

/-- Row `0` as the body reads it back after its store of the zero block. -/
abbrev zrow (arg4 : Memref sig .tc .vmem S1x3x16 .f32) : Vec Ideal S1x1x16 .f32 :=
  arg4.view.readCov [(⟨Rect.unit (s := S1x3x16) ![0, 0, 0] S1x3x16.size inb_S1x3x16_S1x3x16_0_0_0, k0_pay4 (F := Ideal)⟩ : Pc)]
    (Rect.unit (s := S1x3x16) ![0, 0, 0] S1x1x16.size inb_S1x3x16_S1x1x16_0_0_0).toLoadRect

set_option maxHeartbeats 1000000 in
/-- What the body leaves in the block at the first point of a run, row by row: each row is the zero word plus
    the point's vector (row `0` through `interV`, whose read-back row `r0` holds the zero word). -/
theorem out_A (c : Dev nD) (i : grid0.Coords) (arg2 : Memref sig .tc .vmem S1x16x128x512 .f32) (harg2 : arg2.IsWhole)
    (arg3 : Memref sig .tc .vmem S1x128x512 .i32) (harg3 : arg3.IsWhole) (arg4 : Memref sig .tc .vmem S1x3x16 .f32)
    (harg4 : arg4.IsWhole) (hc0 : cond0_0 i)
    (x0 : Vec Ideal S1x16x128x512 .f32) (x1 : Vec Ideal S1x128x512 .i32) (cls : Fin 16) :
    (∃ r0 : Vec Ideal S1x1x16 .f32, r0 (ix3 0 0 cls) = Ideal.ofBits .f32 0x00000000#32 ∧
      out0_A_2 (F := Ideal) c i arg2 harg2 arg3 harg3 arg4 harg4 hc0 x0 x1 (ix3 0 0 cls)
        = Terms.interV (F := Ideal) x0 x1 r0 (ix1 cls))
    ∧ out0_A_2 (F := Ideal) c i arg2 harg2 arg3 harg3 arg4 harg4 hc0 x0 x1 (ix3 0 1 cls)
        = Ideal.ofBits .f32 0x00000000#32 + Terms.psumV (F := Ideal) x0 (ix1 cls)
    ∧ out0_A_2 (F := Ideal) c i arg2 harg2 arg3 harg3 arg4 harg4 hc0 x0 x1 (ix3 0 2 cls)
        = Ideal.ofBits .f32 0x00000000#32 + Terms.tsumV (F := Ideal) x1 (ix1 cls) := by
  unfold out0_A_2
  rw [View.read_writes_eq_canon _ _ _ (cover0_A_2 c i arg2 harg2 arg3 harg3 arg4 harg4 hc0 x0 x1)]
  unfold kernelRun0_A
  dsimp only
  sl_unfold_words
  simp only [View.readAt_eq_ld, harg2.read_unread, harg3.read_unread,
    View.ld_unit_zero (S := S1x16x128x512) hz4, View.ld_unit_zero (S := S1x128x512) hz3]
  refine ⟨⟨zrow arg4, ?_, ?_⟩, ?_, ?_⟩
  rotate_left
  · refine (canon_skip 2 0 (by decide) (by decide) _ _ _ cls).trans ?_
    refine (canon_skip 1 0 (by decide) (by decide) _ _ _ cls).trans ?_
    refine (canon_hit 0 (by decide) _ _ _ cls).trans ?_
    exact pay1_apply _ cls
  · refine (canon_skip 2 1 (by decide) (by decide) _ _ _ cls).trans ?_
    refine (canon_hit 1 (by decide) _ _ _ cls).trans ?_
    refine (pay2_apply _ _ cls).trans ?_
    refine congrArg (· + Terms.psumV (F := Ideal) x0 (ix1 cls)) ?_
    rw [View.readCov_eq_canon']; beta_reduce; rw [idx_row 1 (by decide) _ rfl _ _ cls (fun _ => rfl)]
    refine (canon_skip 0 1 (by decide) (by decide) _ _ _ cls).trans ?_
    exact (canon_whole _ _ _ _).trans (pay4_apply _)
  · refine (canon_hit 2 (by decide) _ _ _ cls).trans ?_
    refine (pay3_apply _ _ cls).trans ?_
    refine congrArg (· + Terms.tsumV (F := Ideal) x1 (ix1 cls)) ?_
    rw [View.readCov_eq_canon']; beta_reduce; rw [idx_row 2 (by decide) _ rfl _ _ cls (fun _ => rfl)]
    refine (canon_skip 1 2 (by decide) (by decide) _ _ _ cls).trans ?_
    refine (canon_skip 0 2 (by decide) (by decide) _ _ _ cls).trans ?_
    exact (canon_whole _ _ _ _).trans (pay4_apply _)
  · unfold zrow
    rw [View.readCov_eq_canon']; beta_reduce; rw [idx_row 0 (by decide) _ rfl _ _ cls (fun _ => rfl)]
    exact (canon_whole _ _ _ _).trans (pay4_apply _)

end Cert.KernelIdeal.Pieces

end
-- ==== Proof.KCaseB.lean ====
/-
  A point that is not the first of its batch element's run: the block holds `xo`, what the point before left,
  and the body adds the point's three vectors to its rows.
-/
import proofs.«169285_j38766374814163_1_alg».proof.Proof.KPieces

noncomputable section

namespace Cert.KernelIdeal.Pieces

open Idealize.ShloMosaic Idealize.ShloMosaic.TcCoe Idealize.SL.Sem Idealize.ShloMosaic.ValueIdx
open Cert.KernelIdeal Cert.KernelIdeal.Gen

/-- Row `0` of the earlier contents, as the body loads it. -/
abbrev row0 (xo : Vec Ideal S1x3x16 .f32) : Vec Ideal S1x1x16 .f32 :=
  View.ld xo (Rect.unit (s := S1x3x16) ![0, 0, 0] S1x1x16.size inb_S1x3x16_S1x1x16_0_0_0)

theorem row0_apply (xo : Vec Ideal S1x3x16 .f32) (cls : Fin 16) : row0 xo (ix3 0 0 cls) = xo (ix3 0 0 cls) :=
  ld_row xo 0 (by decide) _ rfl _ _ cls (fun _ => rfl)

set_option maxHeartbeats 1000000 in
/-- What the body leaves in the block at a later point of a run, row by row. -/
theorem out_B (c : Dev nD) (i : grid0.Coords) (arg2 : Memref sig .tc .vmem S1x16x128x512 .f32) (harg2 : arg2.IsWhole)
    (arg3 : Memref sig .tc .vmem S1x128x512 .i32) (harg3 : arg3.IsWhole) (arg4 : Memref sig .tc .vmem S1x3x16 .f32)
    (harg4 : arg4.IsWhole) (hc0 : ¬cond0_0 i)
    (x0 : Vec Ideal S1x16x128x512 .f32) (x1 : Vec Ideal S1x128x512 .i32) (xo : Vec Ideal S1x3x16 .f32) (cls : Fin 16) :
    out0_B_2 (F := Ideal) c i arg2 harg2 arg3 harg3 arg4 harg4 hc0 x0 x1 xo (ix3 0 0 cls)
        = Terms.interV (F := Ideal) x0 x1 (row0 xo) (ix1 cls)
    ∧ out0_B_2 (F := Ideal) c i arg2 harg2 arg3 harg3 arg4 harg4 hc0 x0 x1 xo (ix3 0 1 cls)
        = xo (ix3 0 1 cls) + Terms.psumV (F := Ideal) x0 (ix1 cls)
    ∧ out0_B_2 (F := Ideal) c i arg2 harg2 arg3 harg3 arg4 harg4 hc0 x0 x1 xo (ix3 0 2 cls)
        = xo (ix3 0 2 cls) + Terms.tsumV (F := Ideal) x1 (ix1 cls) := by
  unfold out0_B_2
  rw [View.read_writes_eq_canon _ _ _ (cover0_B_2 c i arg2 harg2 arg3 harg3 arg4 harg4 hc0 x0 x1 xo)]
  unfold kernelRun0_B
  dsimp only
  sl_unfold_words
  simp only [View.readAt_eq_ld, harg2.read_unread, harg3.read_unread, harg4.read_unread,
    View.ld_unit_zero (S := S1x16x128x512) hz4, View.ld_unit_zero (S := S1x128x512) hz3]
  refine ⟨?_, ?_, ?_⟩
  · refine (canon_skip 2 0 (by decide) (by decide) _ _ _ cls).trans ?_
    refine (canon_skip 1 0 (by decide) (by decide) _ _ _ cls).trans ?_
    refine (canon_hit 0 (by decide) _ _ _ cls).trans ?_
    exact pay1_apply _ cls
  · refine (canon_skip 2 1 (by decide) (by decide) _ _ _ cls).trans ?_
    refine (canon_hit 1 (by decide) _ _ _ cls).trans ?_
    refine (pay2_apply _ _ cls).trans ?_
    exact congrArg (· + Terms.psumV (F := Ideal) x0 (ix1 cls)) (ld_row xo 1 (by decide) _ rfl _ _ cls (fun _ => rfl))
  · refine (canon_hit 2 (by decide) _ _ _ cls).trans ?_
    refine (pay3_apply _ _ cls).trans ?_
    exact congrArg (· + Terms.tsumV (F := Ideal) x1 (ix1 cls)) (ld_row xo 2 (by decide) _ rfl _ _ cls (fun _ => rfl))

end Cert.KernelIdeal.Pieces

end
-- ==== Proof.Spec.lean ====
/-
  The mathematics of the dice loss, stated once for both programs, over index functions of the literal shapes.

  For a pixel with class scores `x : Fin 16 → EReal`, `soft x c` is the softmax weight of class `c`: the
  exponential of `x c` less the largest score, over the sum of those exponentials. For a target word `t`,
  `hit t c` is `1` when the pixel is not ignored (`t ≠ 255`) and its target is class `c`, else `0`, written as
  the product of the two indicator values. The three per-class totals over batch, rows and lanes are
  `totI` (weight times indicator), `totP` (weight) and `totT` (indicator).
-/
import Idealize.ShloMosaic.PureOps.Ideal
import Idealize.ShloMosaic.PureOps.Ideal.Laws
import Idealize.ShloMosaic.Lib.ValueIdx

noncomputable section

namespace Dice

open Idealize.ShloMosaic Idealize.ShloMosaic.ValueIdx

/-- The largest of a pixel's sixteen class scores, folded from the word of `-∞`. -/
def top (x : Fin 16 → EReal) : EReal :=
  (Finset.univ : Finset (Fin 16)).fold max (Ideal.ofBits .f32 0xFF800000#32) x

/-- The softmax weight of class `c` among a pixel's sixteen scores. -/
def soft (x : Fin 16 → EReal) (c : Fin 16) : EReal :=
  Ideal.div (Ideal.exp (x c - top x)) (∑ k : Fin 16, Ideal.exp (x k - top x))

/-- The value of a one-bit word as an extended real: `0` or `1`. -/
def ind (b : BitVec 1) : EReal := ((b.toNat : ℝ) : EReal)

/-- The pixel is not ignored. -/
def okBit (t : BitVec 32) : BitVec 1 := IntOp.cmpi .ne t 255#32

/-- The target with an ignored pixel's replaced by class `0`. -/
def safe (t : BitVec 32) : BitVec 32 := Scalar.select (okBit t) t 0#32

/-- The (replaced) target is the class numbered by the word `k`. -/
def clsBit (t : BitVec 32) (k : BitVec 32) : BitVec 1 := IntOp.cmpi .eq (safe t) k

/-- The one-hot indicator of class `c` at a pixel with target `t`, zero at an ignored pixel. -/
def hit (t : BitVec 32) (c : Fin 16) : EReal := ind (clsBit t (BitVec.ofNat 32 c.val)) * ind (okBit t)

/-- The logits' shape and the targets' shape. -/
abbrev SX : Shape := ⟨4, ![8, 16, 512, 512]⟩
abbrev ST : Shape := ⟨3, ![8, 512, 512]⟩

/-- The softmax weight of class `c` at pixel `(b, y, w)` of the logits `X`. -/
def P (X : SX.Idx → EReal) (b : Fin 8) (c : Fin 16) (y w : Fin 512) : EReal :=
  soft (fun k => X (ix4 b k y w)) c

/-- The indicator of class `c` at pixel `(b, y, w)` of the targets `T`. -/
def Q (T : ST.Idx → BitVec 32) (b : Fin 8) (c : Fin 16) (y w : Fin 512) : EReal :=
  hit (T (ix3 b y w)) c

/-- Per class: the sum over every pixel of weight times indicator, of the weight, of the indicator. -/
def totI (X : SX.Idx → EReal) (T : ST.Idx → BitVec 32) (c : Fin 16) : EReal :=
  ∑ b : Fin 8, ∑ y : Fin 512, ∑ w : Fin 512, P X b c y w * Q T b c y w
def totP (X : SX.Idx → EReal) (c : Fin 16) : EReal :=
  ∑ b : Fin 8, ∑ y : Fin 512, ∑ w : Fin 512, P X b c y w
def totT (T : ST.Idx → BitVec 32) (c : Fin 16) : EReal :=
  ∑ b : Fin 8, ∑ y : Fin 512, ∑ w : Fin 512, Q T b c y w

/-- One [16, 128, 512] block of logits and one [128, 512] block of targets: the same three sums over the
    block's pixels, indexed by the row `k` of the [3, 16] result they are accumulated into
    (`0`: weight times indicator, `1`: weight, `2`: indicator). -/
abbrev SXb : Shape := ⟨4, ![1, 16, 128, 512]⟩
abbrev STb : Shape := ⟨3, ![1, 128, 512]⟩

def Pb (x : SXb.Idx → EReal) (c : Fin 16) (r : Fin 128) (w : Fin 512) : EReal :=
  soft (fun k => x (ix4 0 k r w)) c
def Qb (t : STb.Idx → BitVec 32) (c : Fin 16) (r : Fin 128) (w : Fin 512) : EReal :=
  hit (t (ix3 0 r w)) c

def blkI (x : SXb.Idx → EReal) (t : STb.Idx → BitVec 32) (c : Fin 16) : EReal :=
  ∑ r : Fin 128, ∑ w : Fin 512, Pb x c r w * Qb t c r w
def blkP (x : SXb.Idx → EReal) (c : Fin 16) : EReal :=
  ∑ r : Fin 128, ∑ w : Fin 512, Pb x c r w
def blkT (t : STb.Idx → BitVec 32) (c : Fin 16) : EReal :=
  ∑ r : Fin 128, ∑ w : Fin 512, Qb t c r w

end Dice

end
-- ==== Proof.KPaySum.lean ====
/-
  A sum over a rank-4 index set as the fourfold sum over its coordinates, and the total of a [1, 128, 512] vector as the
  kernel takes it, as the double sum over rows and lanes.
-/
import proofs.«169285_j38766374814163_1_alg».proof.Proof.KTerms
import proofs.«169285_j38766374814163_1_alg».proof.Proof.Spec
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The total of a [1, 128, 512] vector as the kernel takes it — viewed [1, 1, 128, 512], summed over the last three
    axes into [1], viewed [1, 1, 1, 1], its one element extracted — is the double sum over rows and lanes. -/
theorem total_apply (v : FVec Ideal S1x128x512 .f32)
    (h1 : S1x128x512.ShapeCasts S1x1x128x512) (hr : S1x1x128x512.Reduces [1, 2, 3] S1)
    (h2 : S1.ShapeCasts S1x1x1x1) (h3 : ∀ a, (![0, 0, 0, 0] : Fin 4 → Nat) a < S1x1x1x1.size a) :
    extractAt ![0, 0, 0, 0] (shapeCast S1x1x1x1 (multiReduction (F := Ideal) .add [1, 2, 3] S1
        (shapeCast S1x1x128x512 v h1) 0x00000000#32 hr (.inl rfl) rfl) h2) h3
      = ∑ r : Fin 128, ∑ w : Fin 512, v (ix3 0 r w) := by
  unfold extractAt
  unfold shapeCast
  refine (Ideal.multiReduction_add_total (φ := .f32) _ 0x00000000#32 hr (by decide) (.inl rfl) rfl _).trans ?_
  refine (sum_idx4 _).trans ?_
  rw [Fin.sum_univ_one, Fin.sum_univ_one]
  refine Finset.sum_congr rfl fun r _ => Finset.sum_congr rfl fun w _ => ?_
  have e : (fun a : Fin 3 => (ix4 (0 : Fin 1) (0 : Fin 1) r w) a.succ) = ix3 0 r w := by
    funext a; match a with | ⟨0, _⟩ => rfl | ⟨1, _⟩ => rfl | ⟨2, _⟩ => rfl
  exact (shapeCast_addUnit_apply ![1, 128, 512] v h1 (ix4 0 0 r w)).trans (congrArg v e)

end Cert.KernelIdeal.Pay

end
-- ==== Proof.KPaySlice.lean ====
/-
  The class-`c` slice of a [1, 16, 128, 512] vector, read at a pixel.
-/
import proofs.«169285_j38766374814163_1_alg».proof.Proof.KTerms
import proofs.«169285_j38766374814163_1_alg».proof.Proof.Spec
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The class-`c` slice of a [1, 16, 128, 512] vector, viewed [1, 128, 512], at pixel `(r, w)` is the vector at
    `(0, c, r, w)`. -/
theorem slice_apply (v13 : FVec Ideal S1x16x128x512 .f32) (c : Fin 16) (off : Fin 4 → Nat) (hoff : off = ![0, c.val, 0, 0])
    (hs : S1x16x128x512.Slices off S1x1x128x512) (hc : S1x1x128x512.ShapeCasts S1x128x512) (r : Fin 128) (w : Fin 512) :
    shapeCast S1x128x512 (extractStridedSlice S1x1x128x512 off v13 hs) hc (ix3 0 r w) = v13 (ix4 0 c r w) := by
  subst hoff
  refine (shapeCast_dropUnit_apply ![1, 128, 512] _ hc (ix3 0 r w)).trans ?_
  refine extractStridedSlice_apply _ v13 hs _ (ix4 0 c r w) fun a => ?_
  match a with
  | ⟨0, _⟩ => rfl
  | ⟨1, _⟩ => rfl
  | ⟨2, _⟩ => show r.val = 0 + r.val; omega
  | ⟨3, _⟩ => show w.val = 0 + w.val; omega

end Cert.KernelIdeal.Pay

end
-- ==== Proof.KPayMask.lean ====
/-
  The kernel's class mask at a pixel is the one-hot indicator of the pixel's target word, zero at an ignored pixel.
-/
import proofs.«169285_j38766374814163_1_alg».proof.Proof.KTerms
import proofs.«169285_j38766374814163_1_alg».proof.Proof.Spec
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The class mask's word at one pixel: the "and" of two one-bit words, widened to 32 bits and converted, is the product of
    their values. -/
theorem mask_word (a b : BitVec 1) :
    (FloatOps.sitofp (F := Ideal) .f32 ((IntOp.andi a b).setWidth 32) : Ideal .f32) = Dice.ind a * Dice.ind b := by
  show (((((IntOp.andi a b).setWidth 32).toInt : ℝ)) : EReal) = _
  rcases BitVec.eq_zero_or_eq_one a with h | h <;> rcases BitVec.eq_zero_or_eq_one b with h' | h' <;> subst h <;> subst h' <;>
    simp [Dice.ind, IntOp.andi]

/-- The class-`k` mask of the kernel at pixel `(r, w)` is the indicator `Dice.hit` of the pixel's target word. -/
theorem mask_apply (x1 : Vec Ideal S1x128x512 .i32) (k : Fin 16) (kw : BitVec 32) (hk : kw = BitVec.ofNat 32 k.val)
    (h : 1 < 32) (r : Fin 128) (w : Fin 512) :
    sitofp (F := Ideal) .f32 (extui 32 (andi (cmpi .eq (k0_pay7 (F := Ideal) x1) (broadcast S1x128x512 kw)) (k0_pay6 (F := Ideal) x1)) h)
        (ix3 0 r w)
      = Dice.hit (x1 (ix3 0 r w)) k := by
  subst hk
  exact mask_word _ _

end Cert.KernelIdeal.Pay

end
-- ==== Proof.KPaySoft.lean ====
/-
  The kernel's softmax over the class axis, read at one class of one pixel, is the softmax weight of that pixel's sixteen
  scores: the maximum and the sum over the class axis are the fold and the sum over the sixteen classes.
-/
import proofs.«169285_j38766374814163_1_alg».proof.Proof.KTerms
import proofs.«169285_j38766374814163_1_alg».proof.Proof.Spec
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The index a one-axis reduction over the class axis inserts class `k` at is `(0, k, r, w)`. -/
theorem lift_class (h : S1x16x128x512.Reduces [1] S1x128x512) (r : Fin 128) (w : Fin 512) (k : Fin 16) :
    h.lift (ix3 0 r w) k = ix4 0 k r w := by
  funext a
  match a with
  | ⟨0, _⟩ => exact Fin.ext rfl
  | ⟨1, _⟩ => exact Fin.ext rfl
  | ⟨2, _⟩ => exact Fin.ext rfl
  | ⟨3, _⟩ => exact Fin.ext rfl

/-- A [1, 128, 512] vector viewed [1, 1, 128, 512] and broadcast along the class axis reads, at `(0, c, r, w)`, the vector
    at `(0, r, w)`. -/
theorem bcast_class (v : FVec Ideal S1x128x512 .f32) (hsc : S1x128x512.ShapeCasts S1x1x128x512)
    (hb : S1x1x128x512.Broadcasts S1x16x128x512) (c : Fin 16) (r : Fin 128) (w : Fin 512) :
    broadcastTo S1x16x128x512 (shapeCast S1x1x128x512 v hsc) hb (ix4 0 c r w) = v (ix3 0 r w) := by
  refine (broadcastTo_apply _ hb (ix4 0 c r w) (ix4 0 0 r w) fun a => ?_).trans ?_
  · match a with
    | ⟨0, _⟩ => rfl
    | ⟨1, _⟩ => rfl
    | ⟨2, _⟩ => rfl
    | ⟨3, _⟩ => rfl
  · have e : (fun a : Fin 3 => (ix4 (0 : Fin 1) (0 : Fin 1) r w) a.succ) = ix3 0 r w := by
      funext a; match a with | ⟨0, _⟩ => rfl | ⟨1, _⟩ => rfl | ⟨2, _⟩ => rfl
    exact (shapeCast_addUnit_apply ![1, 128, 512] v hsc (ix4 0 0 r w)).trans (congrArg v e)

/-- The kernel's softmax of a logits block at `(0, c, r, w)` is the softmax weight `Dice.Pb` of class `c` at pixel `(r, w)`. -/
theorem softmax_apply (x0 : Vec Ideal S1x16x128x512 .f32) (c : Fin 16) (r : Fin 128) (w : Fin 512) :
    k0_pay5 (F := Ideal) x0 (ix4 0 c r w) = Dice.Pb x0 c r w := by
  have hmax : ∀ c' : Fin 16, broadcastTo S1x16x128x512 (shapeCast S1x1x128x512
      (multiReduction (F := Ideal) .maximumf [1] S1x128x512 x0 0xFF800000#32 reduces_S1x16x128x512_S1x128x512 (.inl rfl) rfl)
      shapeCasts_S1x128x512_S1x1x128x512) broadcasts_S1x1x128x512_S1x16x128x512 (ix4 0 c' r w)
        = Dice.top (fun k => x0 (ix4 0 k r w)) := by
    intro c'
    refine (bcast_class _ _ _ c' r w).trans ?_
    refine (Ideal.multiReduction_maximumf_single (φ := .f32) x0 0xFF800000#32 reduces_S1x16x128x512_S1x128x512 (.inl rfl) rfl
      (ix3 0 r w)).trans ?_
    have e : (x0 ∘ reduces_S1x16x128x512_S1x128x512.lift (ix3 0 r w)) = fun k : Fin 16 => x0 (ix4 0 k r w) :=
      funext fun k => congrArg x0 (lift_class _ r w k)
    exact congrArg (fun f => Finset.fold max (Ideal.ofBits .f32 0xFF800000#32) f (Finset.univ : Finset (Fin 16))) e
  have hE : ∀ c' : Fin 16, (exp (subf x0 (broadcastTo S1x16x128x512 (shapeCast S1x1x128x512
      (multiReduction (F := Ideal) .maximumf [1] S1x128x512 x0 0xFF800000#32 reduces_S1x16x128x512_S1x128x512 (.inl rfl) rfl)
      shapeCasts_S1x128x512_S1x1x128x512) broadcasts_S1x1x128x512_S1x16x128x512)) : FVec Ideal S1x16x128x512 .f32) (ix4 0 c' r w)
      = Ideal.exp (x0 (ix4 0 c' r w) - Dice.top (fun k => x0 (ix4 0 k r w))) :=
    fun c' => congrArg (fun m => Ideal.exp (x0 (ix4 0 c' r w) - m)) (hmax c')
  have hden : broadcastTo S1x16x128x512 (shapeCast S1x1x128x512
      (multiReduction (F := Ideal) .add [1] S1x128x512 (exp (subf x0 (broadcastTo S1x16x128x512 (shapeCast S1x1x128x512
      (multiReduction (F := Ideal) .maximumf [1] S1x128x512 x0 0xFF800000#32 reduces_S1x16x128x512_S1x128x512 (.inl rfl) rfl)
      shapeCasts_S1x128x512_S1x1x128x512) broadcasts_S1x1x128x512_S1x16x128x512)) : FVec Ideal S1x16x128x512 .f32) 0x00000000#32 reduces_S1x16x128x512_S1x128x512 (.inl rfl) rfl)
      shapeCasts_S1x128x512_S1x1x128x512) broadcasts_S1x1x128x512_S1x16x128x512 (ix4 0 c r w)
        = ∑ k : Fin 16, Ideal.exp (x0 (ix4 0 k r w) - Dice.top (fun k => x0 (ix4 0 k r w))) := by
    refine (bcast_class _ _ _ c r w).trans ?_
    refine (Ideal.multiReduction_add_single (φ := .f32) (exp (subf x0 (broadcastTo S1x16x128x512 (shapeCast S1x1x128x512
      (multiReduction (F := Ideal) .maximumf [1] S1x128x512 x0 0xFF800000#32 reduces_S1x16x128x512_S1x128x512 (.inl rfl) rfl)
      shapeCasts_S1x128x512_S1x1x128x512) broadcasts_S1x1x128x512_S1x16x128x512)) : FVec Ideal S1x16x128x512 .f32) 0x00000000#32 reduces_S1x16x128x512_S1x128x512 (.inl rfl) rfl
      (ix3 0 r w)).trans ?_
    exact Finset.sum_congr rfl fun k _ => (congrArg (exp (subf x0 (broadcastTo S1x16x128x512 (shapeCast S1x1x128x512
      (multiReduction (F := Ideal) .maximumf [1] S1x128x512 x0 0xFF800000#32 reduces_S1x16x128x512_S1x128x512 (.inl rfl) rfl)
      shapeCasts_S1x128x512_S1x1x128x512) broadcasts_S1x1x128x512_S1x16x128x512)) : FVec Ideal S1x16x128x512 .f32) (lift_class _ r w k)).trans (hE k)
  exact congrArg₂ Ideal.div (hE c) hden

end Cert.KernelIdeal.Pay

end
-- ==== Proof.KPayClass.lean ====
/-
  The kernel's scalar totals per class: a vector that reads the class's softmax weight (its indicator; their product) at every
  pixel of the block totals to the block's sum of weights (of indicators; of weight times indicator).
-/
import proofs.«169285_j38766374814163_1_alg».proof.Proof.KPaySum
import proofs.«169285_j38766374814163_1_alg».proof.Proof.KPaySlice
import proofs.«169285_j38766374814163_1_alg».proof.Proof.KPayMask
import proofs.«169285_j38766374814163_1_alg».proof.Proof.KPaySoft

noncomputable section

open scoped BigOperators

namespace Cert.KernelIdeal.Pay

open Idealize.ShloMosaic Idealize.ShloMosaic.ValueIdx Cert.KernelIdeal Cert.KernelIdeal.Gen

/-- The kernel's total of a vector that reads the class-`c` softmax weight at every pixel is the block's sum of weights. -/
theorem psum_class (x0 : Vec Ideal S1x16x128x512 .f32) (c : Fin 16) (s : FVec Ideal S1x128x512 .f32)
    (hs : ∀ (r : Fin 128) (w : Fin 512), s (ix3 0 r w) = Dice.Pb x0 c r w)
    (h1 : S1x128x512.ShapeCasts S1x1x128x512) (hr : S1x1x128x512.Reduces [1, 2, 3] S1)
    (h2 : S1.ShapeCasts S1x1x1x1) (h3 : ∀ a, (![0, 0, 0, 0] : Fin 4 → Nat) a < S1x1x1x1.size a) :
    extractAt ![0, 0, 0, 0] (shapeCast S1x1x1x1 (multiReduction (F := Ideal) .add [1, 2, 3] S1
        (shapeCast S1x1x128x512 s h1) 0x00000000#32 hr (.inl rfl) rfl) h2) h3 = Dice.blkP x0 c :=
  (total_apply s h1 hr h2 h3).trans (Finset.sum_congr rfl fun r _ => Finset.sum_congr rfl fun w _ => hs r w)

/-- The kernel's total of a vector that reads the class-`c` indicator at every pixel is the block's sum of indicators. -/
theorem tsum_class (x1 : Vec Ideal S1x128x512 .i32) (c : Fin 16) (m : FVec Ideal S1x128x512 .f32)
    (hm : ∀ (r : Fin 128) (w : Fin 512), m (ix3 0 r w) = Dice.Qb x1 c r w)
    (h1 : S1x128x512.ShapeCasts S1x1x128x512) (hr : S1x1x128x512.Reduces [1, 2, 3] S1)
    (h2 : S1.ShapeCasts S1x1x1x1) (h3 : ∀ a, (![0, 0, 0, 0] : Fin 4 → Nat) a < S1x1x1x1.size a) :
    extractAt ![0, 0, 0, 0] (shapeCast S1x1x1x1 (multiReduction (F := Ideal) .add [1, 2, 3] S1
        (shapeCast S1x1x128x512 m h1) 0x00000000#32 hr (.inl rfl) rfl) h2) h3 = Dice.blkT x1 c :=
  (total_apply m h1 hr h2 h3).trans (Finset.sum_congr rfl fun r _ => Finset.sum_congr rfl fun w _ => hm r w)

/-- The kernel's total of the product of two such vectors is the block's sum of weight times indicator. -/
theorem inter_class (x0 : Vec Ideal S1x16x128x512 .f32) (x1 : Vec Ideal S1x128x512 .i32) (c : Fin 16)
    (s m : FVec Ideal S1x128x512 .f32)
    (hs : ∀ (r : Fin 128) (w : Fin 512), s (ix3 0 r w) = Dice.Pb x0 c r w)
    (hm : ∀ (r : Fin 128) (w : Fin 512), m (ix3 0 r w) = Dice.Qb x1 c r w)
    (h1 : S1x128x512.ShapeCasts S1x1x128x512) (hr : S1x1x128x512.Reduces [1, 2, 3] S1)
    (h2 : S1.ShapeCasts S1x1x1x1) (h3 : ∀ a, (![0, 0, 0, 0] : Fin 4 → Nat) a < S1x1x1x1.size a) :
    extractAt ![0, 0, 0, 0] (shapeCast S1x1x1x1 (multiReduction (F := Ideal) .add [1, 2, 3] S1
        (shapeCast S1x1x128x512 (mulf s m) h1) 0x00000000#32 hr (.inl rfl) rfl) h2) h3 = Dice.blkI x0 x1 c :=
  (total_apply (mulf s m) h1 hr h2 h3).trans (Finset.sum_congr rfl fun r _ => Finset.sum_congr rfl fun w _ =>
    congrArg₂ (fun a b : EReal => a * b) (hs r w) (hm r w))

end Cert.KernelIdeal.Pay

end
-- ==== Proof.KPayCat.lean ====
/-
  A [16] concatenation of sixteen one-element vectors read at an entry, and a [1, 1, 16] row viewed [16] read at an entry.
-/
import proofs.«169285_j38766374814163_1_alg».proof.Proof.KTerms
import proofs.«169285_j38766374814163_1_alg».proof.Proof.Spec
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- A [16] concatenation of sixteen one-element vectors reads, at entry `c`, the one element of piece `c`. -/
theorem concat16_apply (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (c : Fin 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 c)
      = (![v0, v1, v2, v3, v4, v5, v6, v7, v8, v9, v10, v11, v12, v13, v14, v15] c) (ix1 0) :=
  concatenate_ofFn_unit_apply (t := S16) (s₁ := S1) 0 (N := 16) ![v0, v1, v2, v3, v4, v5, v6, v7, v8, v9, v10, v11, v12, v13, v14, v15] h rfl rfl (ix1 c) c rfl (ix1 0)
    (fun b hb => absurd (Fin.ext (Nat.lt_one_iff.mp b.isLt)) hb)

/-- A [1, 1, 16] row viewed [16] reads, at entry `c`, the row at `(0, 0, c)`. -/
theorem row_apply (r0 : Vec Ideal S1x1x16 .f32) (h : S1x1x16.ShapeCasts S16) (c : Fin 16) :
    shapeCast S16 r0 h (ix1 c) = r0 (ix3 0 0 c) := by
  refine shapeCast_apply r0 h (ix1 c) (ix3 0 0 c) ?_
  rw [Shape.rowMajor_val_three, Shape.rowMajor_val_one]
  show ((0 * 1 + 0) * 16 + c.val) = c.val
  omega

/-! The same at each of the sixteen entries, the piece named. -/

theorem concat16_at0 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 0 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨0, hc⟩ : Fin 16)) = v0 (ix1 0) :=
  concat16_apply v0 v1 v2 v3 v4 v5 v6 v7 v8 v9 v10 v11 v12 v13 v14 v15 h ⟨0, hc⟩
theorem concat16_at1 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 1 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨1, hc⟩ : Fin 16)) = v1 (ix1 0) :=
  concat16_apply v0 v1 v2 v3 v4 v5 v6 v7 v8 v9 v10 v11 v12 v13 v14 v15 h ⟨1, hc⟩
theorem concat16_at2 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 2 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨2, hc⟩ : Fin 16)) = v2 (ix1 0) :=
  concat16_apply v0 v1 v2 v3 v4 v5 v6 v7 v8 v9 v10 v11 v12 v13 v14 v15 h ⟨2, hc⟩
theorem concat16_at3 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 3 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨3, hc⟩ : Fin 16)) = v3 (ix1 0) :=
  concat16_apply v0 v1 v2 v3 v4 v5 v6 v7 v8 v9 v10 v11 v12 v13 v14 v15 h ⟨3, hc⟩
theorem concat16_at4 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 4 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨4, hc⟩ : Fin 16)) = v4 (ix1 0) :=
  concat16_apply v0 v1 v2 v3 v4 v5 v6 v7 v8 v9 v10 v11 v12 v13 v14 v15 h ⟨4, hc⟩
theorem concat16_at5 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 5 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨5, hc⟩ : Fin 16)) = v5 (ix1 0) :=
  concat16_apply v0 v1 v2 v3 v4 v5 v6 v7 v8 v9 v10 v11 v12 v13 v14 v15 h ⟨5, hc⟩
theorem concat16_at6 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 6 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨6, hc⟩ : Fin 16)) = v6 (ix1 0) :=
  concat16_apply v0 v1 v2 v3 v4 v5 v6 v7 v8 v9 v10 v11 v12 v13 v14 v15 h ⟨6, hc⟩
theorem concat16_at7 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 7 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨7, hc⟩ : Fin 16)) = v7 (ix1 0) :=
  concat16_apply v0 v1 v2 v3 v4 v5 v6 v7 v8 v9 v10 v11 v12 v13 v14 v15 h ⟨7, hc⟩
theorem concat16_at8 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 8 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨8, hc⟩ : Fin 16)) = v8 (ix1 0) :=
  concat16_apply v0 v1 v2 v3 v4 v5 v6 v7 v8 v9 v10 v11 v12 v13 v14 v15 h ⟨8, hc⟩
theorem concat16_at9 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 9 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨9, hc⟩ : Fin 16)) = v9 (ix1 0) :=
  concat16_apply v0 v1 v2 v3 v4 v5 v6 v7 v8 v9 v10 v11 v12 v13 v14 v15 h ⟨9, hc⟩
theorem concat16_at10 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 10 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨10, hc⟩ : Fin 16)) = v10 (ix1 0) :=
  concat16_apply v0 v1 v2 v3 v4 v5 v6 v7 v8 v9 v10 v11 v12 v13 v14 v15 h ⟨10, hc⟩
theorem concat16_at11 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 11 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨11, hc⟩ : Fin 16)) = v11 (ix1 0) :=
  concat16_apply v0 v1 v2 v3 v4 v5 v6 v7 v8 v9 v10 v11 v12 v13 v14 v15 h ⟨11, hc⟩
theorem concat16_at12 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 12 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨12, hc⟩ : Fin 16)) = v12 (ix1 0) :=
  concat16_apply v0 v1 v2 v3 v4 v5 v6 v7 v8 v9 v10 v11 v12 v13 v14 v15 h ⟨12, hc⟩
theorem concat16_at13 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 13 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨13, hc⟩ : Fin 16)) = v13 (ix1 0) :=
  concat16_apply v0 v1 v2 v3 v4 v5 v6 v7 v8 v9 v10 v11 v12 v13 v14 v15 h ⟨13, hc⟩
theorem concat16_at14 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 14 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨14, hc⟩ : Fin 16)) = v14 (ix1 0) :=
  concat16_apply v0 v1 v2 v3 v4 v5 v6 v7 v8 v9 v10 v11 v12 v13 v14 v15 h ⟨14, hc⟩
theorem concat16_at15 (v0 v1 v2 v3 v4 v5 v6 v7 v8 v9 v10 v11 v12 v13 v14 v15 : FVec Ideal S1 .f32)
    (h : Shape.Concatenates [S1, S1, S1, S1, S1, S1, S1, S1, S1, S1, S1, S1, S1, S1, S1, S1] S16 0) (hc : 15 < 16) :
    concatenate S16 0 [⟨S1, v0⟩, ⟨S1, v1⟩, ⟨S1, v2⟩, ⟨S1, v3⟩, ⟨S1, v4⟩, ⟨S1, v5⟩, ⟨S1, v6⟩, ⟨S1, v7⟩, ⟨S1, v8⟩, ⟨S1, v9⟩, ⟨S1, v10⟩, ⟨S1, v11⟩, ⟨S1, v12⟩, ⟨S1, v13⟩, ⟨S1, v14⟩, ⟨S1, v15⟩] h (ix1 (⟨15, hc⟩ : Fin 16)) = v15 (ix1 0) :=
  concat16_apply v0 v1 v2 v3 v4 v5 v6 v7 v8 v9 v10 v11 v12 v13 v14 v15 h ⟨15, hc⟩

end Cert.KernelIdeal.Pay

end
-- ==== Proof.KPay.lean ====
/-
  The kernel's 48 scalar reductions read: entry `c` of each of the three sixteen-entry vectors a grid point adds into its
  result block is the block's sum, over its pixels, of the class-`c` softmax weight, of the class-`c` indicator, and (on top
  of the row's contents) of weight times indicator. Each entry is one piece of a sixteen-piece concatenation; the piece is the
  total of a class slice of the softmax, of a class mask, or of their product.
-/
import proofs.«169285_j38766374814163_1_alg».proof.Proof.KTerms
import proofs.«169285_j38766374814163_1_alg».proof.Proof.Spec
import Idealize.ShloMosaic.Lib.Pipeline.Value
import Idealize.ShloMosaic.PureOps.Ideal.Laws
import proofs.«169285_j38766374814163_1_alg».proof.Proof.KPayClass
import proofs.«169285_j38766374814163_1_alg».proof.Proof.KPayCat

noncomputable section

open scoped BigOperators

namespace Cert.KernelIdeal.Pay

open Idealize.ShloMosaic Idealize.ShloMosaic.ValueIdx Cert.KernelIdeal Cert.KernelIdeal.Gen

/-- Entry `c` of the weights' vector is the block's sum of the class-`c` softmax weights. -/
theorem psumV_apply (x0 : Vec Ideal S1x16x128x512 .f32) (c : Fin 16) :
    Terms.psumV (F := Ideal) x0 (ix1 c) = Dice.blkP x0 c := by
  unfold Terms.psumV k0_pay90
  match c with
  | ⟨0, hc⟩ =>
    refine (concat16_at0 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay11]
    refine psum_class x0 ⟨0, hc⟩ _ ?_ _ _ _ _
    intro r w
    simp only [k0_pay8]
    exact (slice_apply (k0_pay5 (F := Ideal) x0) ⟨0, hc⟩ _ rfl _ _ r w).trans (softmax_apply x0 ⟨0, hc⟩ r w)
  | ⟨1, hc⟩ =>
    refine (concat16_at1 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay16]
    refine psum_class x0 ⟨1, hc⟩ _ ?_ _ _ _ _
    intro r w
    simp only [k0_pay13]
    exact (slice_apply (k0_pay5 (F := Ideal) x0) ⟨1, hc⟩ _ rfl _ _ r w).trans (softmax_apply x0 ⟨1, hc⟩ r w)
  | ⟨2, hc⟩ =>
    refine (concat16_at2 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay21]
    refine psum_class x0 ⟨2, hc⟩ _ ?_ _ _ _ _
    intro r w
    simp only [k0_pay18]
    exact (slice_apply (k0_pay5 (F := Ideal) x0) ⟨2, hc⟩ _ rfl _ _ r w).trans (softmax_apply x0 ⟨2, hc⟩ r w)
  | ⟨3, hc⟩ =>
    refine (concat16_at3 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay26]
    refine psum_class x0 ⟨3, hc⟩ _ ?_ _ _ _ _
    intro r w
    simp only [k0_pay23]
    exact (slice_apply (k0_pay5 (F := Ideal) x0) ⟨3, hc⟩ _ rfl _ _ r w).trans (softmax_apply x0 ⟨3, hc⟩ r w)
  | ⟨4, hc⟩ =>
    refine (concat16_at4 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay31]
    refine psum_class x0 ⟨4, hc⟩ _ ?_ _ _ _ _
    intro r w
    simp only [k0_pay28]
    exact (slice_apply (k0_pay5 (F := Ideal) x0) ⟨4, hc⟩ _ rfl _ _ r w).trans (softmax_apply x0 ⟨4, hc⟩ r w)
  | ⟨5, hc⟩ =>
    refine (concat16_at5 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay36]
    refine psum_class x0 ⟨5, hc⟩ _ ?_ _ _ _ _
    intro r w
    simp only [k0_pay33]
    exact (slice_apply (k0_pay5 (F := Ideal) x0) ⟨5, hc⟩ _ rfl _ _ r w).trans (softmax_apply x0 ⟨5, hc⟩ r w)
  | ⟨6, hc⟩ =>
    refine (concat16_at6 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay41]
    refine psum_class x0 ⟨6, hc⟩ _ ?_ _ _ _ _
    intro r w
    simp only [k0_pay38]
    exact (slice_apply (k0_pay5 (F := Ideal) x0) ⟨6, hc⟩ _ rfl _ _ r w).trans (softmax_apply x0 ⟨6, hc⟩ r w)
  | ⟨7, hc⟩ =>
    refine (concat16_at7 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay46]
    refine psum_class x0 ⟨7, hc⟩ _ ?_ _ _ _ _
    intro r w
    simp only [k0_pay43]
    exact (slice_apply (k0_pay5 (F := Ideal) x0) ⟨7, hc⟩ _ rfl _ _ r w).trans (softmax_apply x0 ⟨7, hc⟩ r w)
  | ⟨8, hc⟩ =>
    refine (concat16_at8 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay51]
    refine psum_class x0 ⟨8, hc⟩ _ ?_ _ _ _ _
    intro r w
    simp only [k0_pay48]
    exact (slice_apply (k0_pay5 (F := Ideal) x0) ⟨8, hc⟩ _ rfl _ _ r w).trans (softmax_apply x0 ⟨8, hc⟩ r w)
  | ⟨9, hc⟩ =>
    refine (concat16_at9 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay56]
    refine psum_class x0 ⟨9, hc⟩ _ ?_ _ _ _ _
    intro r w
    simp only [k0_pay53]
    exact (slice_apply (k0_pay5 (F := Ideal) x0) ⟨9, hc⟩ _ rfl _ _ r w).trans (softmax_apply x0 ⟨9, hc⟩ r w)
  | ⟨10, hc⟩ =>
    refine (concat16_at10 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay61]
    refine psum_class x0 ⟨10, hc⟩ _ ?_ _ _ _ _
    intro r w
    simp only [k0_pay58]
    exact (slice_apply (k0_pay5 (F := Ideal) x0) ⟨10, hc⟩ _ rfl _ _ r w).trans (softmax_apply x0 ⟨10, hc⟩ r w)
  | ⟨11, hc⟩ =>
    refine (concat16_at11 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay66]
    refine psum_class x0 ⟨11, hc⟩ _ ?_ _ _ _ _
    intro r w
    simp only [k0_pay63]
    exact (slice_apply (k0_pay5 (F := Ideal) x0) ⟨11, hc⟩ _ rfl _ _ r w).trans (softmax_apply x0 ⟨11, hc⟩ r w)
  | ⟨12, hc⟩ =>
    refine (concat16_at12 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay71]
    refine psum_class x0 ⟨12, hc⟩ _ ?_ _ _ _ _
    intro r w
    simp only [k0_pay68]
    exact (slice_apply (k0_pay5 (F := Ideal) x0) ⟨12, hc⟩ _ rfl _ _ r w).trans (softmax_apply x0 ⟨12, hc⟩ r w)
  | ⟨13, hc⟩ =>
    refine (concat16_at13 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay76]
    refine psum_class x0 ⟨13, hc⟩ _ ?_ _ _ _ _
    intro r w
    simp only [k0_pay73]
    exact (slice_apply (k0_pay5 (F := Ideal) x0) ⟨13, hc⟩ _ rfl _ _ r w).trans (softmax_apply x0 ⟨13, hc⟩ r w)
  | ⟨14, hc⟩ =>
    refine (concat16_at14 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay81]
    refine psum_class x0 ⟨14, hc⟩ _ ?_ _ _ _ _
    intro r w
    simp only [k0_pay78]
    exact (slice_apply (k0_pay5 (F := Ideal) x0) ⟨14, hc⟩ _ rfl _ _ r w).trans (softmax_apply x0 ⟨14, hc⟩ r w)
  | ⟨15, hc⟩ =>
    refine (concat16_at15 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay86]
    refine psum_class x0 ⟨15, hc⟩ _ ?_ _ _ _ _
    intro r w
    simp only [k0_pay83]
    exact (slice_apply (k0_pay5 (F := Ideal) x0) ⟨15, hc⟩ _ rfl _ _ r w).trans (softmax_apply x0 ⟨15, hc⟩ r w)
  | ⟨n + 16, h⟩ => exact absurd h (by omega)

/-- Entry `c` of the indicators' vector is the block's sum of the class-`c` indicators. -/
theorem tsumV_apply (x1 : Vec Ideal S1x128x512 .i32) (c : Fin 16) :
    Terms.tsumV (F := Ideal) x1 (ix1 c) = Dice.blkT x1 c := by
  unfold Terms.tsumV k0_pay91
  match c with
  | ⟨0, hc⟩ =>
    refine (concat16_at0 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay12]
    refine tsum_class x1 ⟨0, hc⟩ _ ?_ _ _ _ _
    intro r w
    simp only [k0_pay9]
    exact mask_apply x1 ⟨0, hc⟩ _ rfl _ r w
  | ⟨1, hc⟩ =>
    refine (concat16_at1 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay17]
    refine tsum_class x1 ⟨1, hc⟩ _ ?_ _ _ _ _
    intro r w
    simp only [k0_pay14]
    exact mask_apply x1 ⟨1, hc⟩ _ rfl _ r w
  | ⟨2, hc⟩ =>
    refine (concat16_at2 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay22]
    refine tsum_class x1 ⟨2, hc⟩ _ ?_ _ _ _ _
    intro r w
    simp only [k0_pay19]
    exact mask_apply x1 ⟨2, hc⟩ _ rfl _ r w
  | ⟨3, hc⟩ =>
    refine (concat16_at3 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay27]
    refine tsum_class x1 ⟨3, hc⟩ _ ?_ _ _ _ _
    intro r w
    simp only [k0_pay24]
    exact mask_apply x1 ⟨3, hc⟩ _ rfl _ r w
  | ⟨4, hc⟩ =>
    refine (concat16_at4 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay32]
    refine tsum_class x1 ⟨4, hc⟩ _ ?_ _ _ _ _
    intro r w
    simp only [k0_pay29]
    exact mask_apply x1 ⟨4, hc⟩ _ rfl _ r w
  | ⟨5, hc⟩ =>
    refine (concat16_at5 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay37]
    refine tsum_class x1 ⟨5, hc⟩ _ ?_ _ _ _ _
    intro r w
    simp only [k0_pay34]
    exact mask_apply x1 ⟨5, hc⟩ _ rfl _ r w
  | ⟨6, hc⟩ =>
    refine (concat16_at6 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay42]
    refine tsum_class x1 ⟨6, hc⟩ _ ?_ _ _ _ _
    intro r w
    simp only [k0_pay39]
    exact mask_apply x1 ⟨6, hc⟩ _ rfl _ r w
  | ⟨7, hc⟩ =>
    refine (concat16_at7 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay47]
    refine tsum_class x1 ⟨7, hc⟩ _ ?_ _ _ _ _
    intro r w
    simp only [k0_pay44]
    exact mask_apply x1 ⟨7, hc⟩ _ rfl _ r w
  | ⟨8, hc⟩ =>
    refine (concat16_at8 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay52]
    refine tsum_class x1 ⟨8, hc⟩ _ ?_ _ _ _ _
    intro r w
    simp only [k0_pay49]
    exact mask_apply x1 ⟨8, hc⟩ _ rfl _ r w
  | ⟨9, hc⟩ =>
    refine (concat16_at9 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay57]
    refine tsum_class x1 ⟨9, hc⟩ _ ?_ _ _ _ _
    intro r w
    simp only [k0_pay54]
    exact mask_apply x1 ⟨9, hc⟩ _ rfl _ r w
  | ⟨10, hc⟩ =>
    refine (concat16_at10 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay62]
    refine tsum_class x1 ⟨10, hc⟩ _ ?_ _ _ _ _
    intro r w
    simp only [k0_pay59]
    exact mask_apply x1 ⟨10, hc⟩ _ rfl _ r w
  | ⟨11, hc⟩ =>
    refine (concat16_at11 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay67]
    refine tsum_class x1 ⟨11, hc⟩ _ ?_ _ _ _ _
    intro r w
    simp only [k0_pay64]
    exact mask_apply x1 ⟨11, hc⟩ _ rfl _ r w
  | ⟨12, hc⟩ =>
    refine (concat16_at12 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay72]
    refine tsum_class x1 ⟨12, hc⟩ _ ?_ _ _ _ _
    intro r w
    simp only [k0_pay69]
    exact mask_apply x1 ⟨12, hc⟩ _ rfl _ r w
  | ⟨13, hc⟩ =>
    refine (concat16_at13 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay77]
    refine tsum_class x1 ⟨13, hc⟩ _ ?_ _ _ _ _
    intro r w
    simp only [k0_pay74]
    exact mask_apply x1 ⟨13, hc⟩ _ rfl _ r w
  | ⟨14, hc⟩ =>
    refine (concat16_at14 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay82]
    refine tsum_class x1 ⟨14, hc⟩ _ ?_ _ _ _ _
    intro r w
    simp only [k0_pay79]
    exact mask_apply x1 ⟨14, hc⟩ _ rfl _ r w
  | ⟨15, hc⟩ =>
    refine (concat16_at15 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay87]
    refine tsum_class x1 ⟨15, hc⟩ _ ?_ _ _ _ _
    intro r w
    simp only [k0_pay84]
    exact mask_apply x1 ⟨15, hc⟩ _ rfl _ r w
  | ⟨n + 16, h⟩ => exact absurd h (by omega)

/-- Entry `c` of the products' vector is the row's entry plus the block's sum of class-`c` weight times indicator. -/
theorem interV_apply (x0 : Vec Ideal S1x16x128x512 .f32) (x1 : Vec Ideal S1x128x512 .i32) (r0 : Vec Ideal S1x1x16 .f32)
    (c : Fin 16) :
    Terms.interV (F := Ideal) x0 x1 r0 (ix1 c) = r0 (ix3 0 0 c) + Dice.blkI x0 x1 c := by
  unfold Terms.interV k0_pay92
  refine (addf_apply _ _ _).trans ?_
  refine congrArg₂ (fun a b : EReal => a + b) (row_apply r0 shapeCasts_S1x1x16_S16 c) ?_
  match c with
  | ⟨0, hc⟩ =>
    refine (concat16_at0 _ _ _ _ _ _ _ _ _ _ _ _ _ _ _ _ concatenates_S1_S1_S1_S1_S1_S1_S1_S1_S1_S1_S1_S1_S1_S1_S1_S1_S16_d0 hc).trans ?_
    simp only [k0_pay88]
    refine (broadcast_apply _ _).trans ?_
    simp only [k0_pay10]
    refine inter_class x0 x1 ⟨0, hc⟩ _ _ ?_ ?_ _ _ _ _
    · intro r w
      simp only [k0_pay8]
      exact (slice_apply (k0_pay5 (F := Ideal) x0) ⟨0, hc⟩ _ rfl _ _ r w).trans (softmax_apply x0 ⟨0, hc⟩ r w)
    · intro r w
      simp only [k0_pay9]
      exact mask_apply x1 ⟨0, hc⟩ _ rfl _ r w
  | ⟨1, hc⟩ =>
    refine (concat16_at1 _ _ _ _ _ _ _ _ _ _ _ _ _ _ _ _ concatenates_S1_S1_S1_S1_S1_S1_S1_S1_S1_S1_S1_S1_S1_S1_S1_S1_S16_d0 hc).trans ?_
    simp only [k0_pay89]
    refine (broadcast_apply _ _).trans ?_
    simp only [k0_pay15]
    refine inter_class x0 x1 ⟨1, hc⟩ _ _ ?_ ?_ _ _ _ _
    · intro r w
      simp only [k0_pay13]
      exact (slice_apply (k0_pay5 (F := Ideal) x0) ⟨1, hc⟩ _ rfl _ _ r w).trans (softmax_apply x0 ⟨1, hc⟩ r w)
    · intro r w
      simp only [k0_pay14]
      exact mask_apply x1 ⟨1, hc⟩ _ rfl _ r w
  | ⟨2, hc⟩ =>
    refine (concat16_at2 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay20]
    refine inter_class x0 x1 ⟨2, hc⟩ _ _ ?_ ?_ _ _ _ _
    · intro r w
      simp only [k0_pay18]
      exact (slice_apply (k0_pay5 (F := Ideal) x0) ⟨2, hc⟩ _ rfl _ _ r w).trans (softmax_apply x0 ⟨2, hc⟩ r w)
    · intro r w
      simp only [k0_pay19]
      exact mask_apply x1 ⟨2, hc⟩ _ rfl _ r w
  | ⟨3, hc⟩ =>
    refine (concat16_at3 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay25]
    refine inter_class x0 x1 ⟨3, hc⟩ _ _ ?_ ?_ _ _ _ _
    · intro r w
      simp only [k0_pay23]
      exact (slice_apply (k0_pay5 (F := Ideal) x0) ⟨3, hc⟩ _ rfl _ _ r w).trans (softmax_apply x0 ⟨3, hc⟩ r w)
    · intro r w
      simp only [k0_pay24]
      exact mask_apply x1 ⟨3, hc⟩ _ rfl _ r w
  | ⟨4, hc⟩ =>
    refine (concat16_at4 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay30]
    refine inter_class x0 x1 ⟨4, hc⟩ _ _ ?_ ?_ _ _ _ _
    · intro r w
      simp only [k0_pay28]
      exact (slice_apply (k0_pay5 (F := Ideal) x0) ⟨4, hc⟩ _ rfl _ _ r w).trans (softmax_apply x0 ⟨4, hc⟩ r w)
    · intro r w
      simp only [k0_pay29]
      exact mask_apply x1 ⟨4, hc⟩ _ rfl _ r w
  | ⟨5, hc⟩ =>
    refine (concat16_at5 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay35]
    refine inter_class x0 x1 ⟨5, hc⟩ _ _ ?_ ?_ _ _ _ _
    · intro r w
      simp only [k0_pay33]
      exact (slice_apply (k0_pay5 (F := Ideal) x0) ⟨5, hc⟩ _ rfl _ _ r w).trans (softmax_apply x0 ⟨5, hc⟩ r w)
    · intro r w
      simp only [k0_pay34]
      exact mask_apply x1 ⟨5, hc⟩ _ rfl _ r w
  | ⟨6, hc⟩ =>
    refine (concat16_at6 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay40]
    refine inter_class x0 x1 ⟨6, hc⟩ _ _ ?_ ?_ _ _ _ _
    · intro r w
      simp only [k0_pay38]
      exact (slice_apply (k0_pay5 (F := Ideal) x0) ⟨6, hc⟩ _ rfl _ _ r w).trans (softmax_apply x0 ⟨6, hc⟩ r w)
    · intro r w
      simp only [k0_pay39]
      exact mask_apply x1 ⟨6, hc⟩ _ rfl _ r w
  | ⟨7, hc⟩ =>
    refine (concat16_at7 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay45]
    refine inter_class x0 x1 ⟨7, hc⟩ _ _ ?_ ?_ _ _ _ _
    · intro r w
      simp only [k0_pay43]
      exact (slice_apply (k0_pay5 (F := Ideal) x0) ⟨7, hc⟩ _ rfl _ _ r w).trans (softmax_apply x0 ⟨7, hc⟩ r w)
    · intro r w
      simp only [k0_pay44]
      exact mask_apply x1 ⟨7, hc⟩ _ rfl _ r w
  | ⟨8, hc⟩ =>
    refine (concat16_at8 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay50]
    refine inter_class x0 x1 ⟨8, hc⟩ _ _ ?_ ?_ _ _ _ _
    · intro r w
      simp only [k0_pay48]
      exact (slice_apply (k0_pay5 (F := Ideal) x0) ⟨8, hc⟩ _ rfl _ _ r w).trans (softmax_apply x0 ⟨8, hc⟩ r w)
    · intro r w
      simp only [k0_pay49]
      exact mask_apply x1 ⟨8, hc⟩ _ rfl _ r w
  | ⟨9, hc⟩ =>
    refine (concat16_at9 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay55]
    refine inter_class x0 x1 ⟨9, hc⟩ _ _ ?_ ?_ _ _ _ _
    · intro r w
      simp only [k0_pay53]
      exact (slice_apply (k0_pay5 (F := Ideal) x0) ⟨9, hc⟩ _ rfl _ _ r w).trans (softmax_apply x0 ⟨9, hc⟩ r w)
    · intro r w
      simp only [k0_pay54]
      exact mask_apply x1 ⟨9, hc⟩ _ rfl _ r w
  | ⟨10, hc⟩ =>
    refine (concat16_at10 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay60]
    refine inter_class x0 x1 ⟨10, hc⟩ _ _ ?_ ?_ _ _ _ _
    · intro r w
      simp only [k0_pay58]
      exact (slice_apply (k0_pay5 (F := Ideal) x0) ⟨10, hc⟩ _ rfl _ _ r w).trans (softmax_apply x0 ⟨10, hc⟩ r w)
    · intro r w
      simp only [k0_pay59]
      exact mask_apply x1 ⟨10, hc⟩ _ rfl _ r w
  | ⟨11, hc⟩ =>
    refine (concat16_at11 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay65]
    refine inter_class x0 x1 ⟨11, hc⟩ _ _ ?_ ?_ _ _ _ _
    · intro r w
      simp only [k0_pay63]
      exact (slice_apply (k0_pay5 (F := Ideal) x0) ⟨11, hc⟩ _ rfl _ _ r w).trans (softmax_apply x0 ⟨11, hc⟩ r w)
    · intro r w
      simp only [k0_pay64]
      exact mask_apply x1 ⟨11, hc⟩ _ rfl _ r w
  | ⟨12, hc⟩ =>
    refine (concat16_at12 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay70]
    refine inter_class x0 x1 ⟨12, hc⟩ _ _ ?_ ?_ _ _ _ _
    · intro r w
      simp only [k0_pay68]
      exact (slice_apply (k0_pay5 (F := Ideal) x0) ⟨12, hc⟩ _ rfl _ _ r w).trans (softmax_apply x0 ⟨12, hc⟩ r w)
    · intro r w
      simp only [k0_pay69]
      exact mask_apply x1 ⟨12, hc⟩ _ rfl _ r w
  | ⟨13, hc⟩ =>
    refine (concat16_at13 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay75]
    refine inter_class x0 x1 ⟨13, hc⟩ _ _ ?_ ?_ _ _ _ _
    · intro r w
      simp only [k0_pay73]
      exact (slice_apply (k0_pay5 (F := Ideal) x0) ⟨13, hc⟩ _ rfl _ _ r w).trans (softmax_apply x0 ⟨13, hc⟩ r w)
    · intro r w
      simp only [k0_pay74]
      exact mask_apply x1 ⟨13, hc⟩ _ rfl _ r w
  | ⟨14, hc⟩ =>
    refine (concat16_at14 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay80]
    refine inter_class x0 x1 ⟨14, hc⟩ _ _ ?_ ?_ _ _ _ _
    · intro r w
      simp only [k0_pay78]
      exact (slice_apply (k0_pay5 (F := Ideal) x0) ⟨14, hc⟩ _ rfl _ _ r w).trans (softmax_apply x0 ⟨14, hc⟩ r w)
    · intro r w
      simp only [k0_pay79]
      exact mask_apply x1 ⟨14, hc⟩ _ rfl _ r w
  | ⟨15, hc⟩ =>
    refine (concat16_at15 _ _ _ _ _ _ _ _ _ _ _ _ _ _ _ _ concatenates_S1_S1_S1_S1_S1_S1_S1_S1_S1_S1_S1_S1_S1_S1_S1_S1_S16_d0 hc).trans ?_
    refine (broadcast_apply _ _).trans ?_
    simp only [k0_pay85]
    refine inter_class x0 x1 ⟨15, hc⟩ _ _ ?_ ?_ _ _ _ _
    · intro r w
      simp only [k0_pay83]
      exact (slice_apply (k0_pay5 (F := Ideal) x0) ⟨15, hc⟩ _ rfl _ _ r w).trans (softmax_apply x0 ⟨15, hc⟩ r w)
    · intro r w
      simp only [k0_pay84]
      exact mask_apply x1 ⟨15, hc⟩ _ rfl _ r w
  | ⟨n + 16, h⟩ => exact absurd h (by omega)

end Cert.KernelIdeal.Pay

end
-- ==== Proof.KBlock.lean ====
/-
  One grid point's contribution to its [1, 3, 16] result block, as the spec's block sums: row `0` the sums of
  weight times indicator, row `1` of the weight, row `2` of the indicator. A later point of a run adds it to
  what the point before left; the first point of a run adds it to the zero word.
-/
import proofs.«169285_j38766374814163_1_alg».proof.Proof.KCaseA
import proofs.«169285_j38766374814163_1_alg».proof.Proof.KCaseB
import proofs.«169285_j38766374814163_1_alg».proof.Proof.KPay
import proofs.«169285_j38766374814163_1_alg».proof.Proof.Spec

noncomputable section

namespace Cert.KernelIdeal.Pieces

open Idealize.ShloMosaic Idealize.ShloMosaic.TcCoe Idealize.SL.Sem Idealize.ShloMosaic.ValueIdx
open Cert.KernelIdeal Cert.KernelIdeal.Gen

/-- Row `k`, class `cls` of one point's contribution. -/
def blk3 (x0 : Vec Ideal S1x16x128x512 .f32) (x1 : Vec Ideal S1x128x512 .i32) (k : Fin 3) (cls : Fin 16) : EReal :=
  if k = 0 then Dice.blkI x0 x1 cls else if k = 1 then Dice.blkP x0 cls else Dice.blkT x1 cls

theorem out_B_eq (c : Dev nD) (i : grid0.Coords) (arg2 : Memref sig .tc .vmem S1x16x128x512 .f32) (harg2 : arg2.IsWhole)
    (arg3 : Memref sig .tc .vmem S1x128x512 .i32) (harg3 : arg3.IsWhole) (arg4 : Memref sig .tc .vmem S1x3x16 .f32)
    (harg4 : arg4.IsWhole) (hc0 : ¬cond0_0 i)
    (x0 : Vec Ideal S1x16x128x512 .f32) (x1 : Vec Ideal S1x128x512 .i32) (xo : Vec Ideal S1x3x16 .f32) (k : Fin 3) (cls : Fin 16) :
    out0_B_2 (F := Ideal) c i arg2 harg2 arg3 harg3 arg4 harg4 hc0 x0 x1 xo (ix3 0 k cls)
      = xo (ix3 0 k cls) + blk3 x0 x1 k cls := by
  obtain ⟨h0, h1, h2⟩ := out_B c i arg2 harg2 arg3 harg3 arg4 harg4 hc0 x0 x1 xo cls
  match k with
  | ⟨0, _⟩ =>
    have e : blk3 x0 x1 (0 : Fin 3) cls = Dice.blkI x0 x1 cls := if_pos rfl
    show _ = xo (ix3 0 0 cls) + blk3 x0 x1 (0 : Fin 3) cls
    rw [e]
    exact h0.trans ((Cert.KernelIdeal.Pay.interV_apply x0 x1 (row0 xo) cls).trans
      (congrArg (· + Dice.blkI x0 x1 cls) (row0_apply xo cls)))
  | ⟨1, _⟩ =>
    have e : blk3 x0 x1 (1 : Fin 3) cls = Dice.blkP x0 cls := (if_neg (by decide)).trans (if_pos rfl)
    show _ = xo (ix3 0 1 cls) + blk3 x0 x1 (1 : Fin 3) cls
    rw [e]
    exact h1.trans (congrArg (xo (ix3 0 1 cls) + ·) (Cert.KernelIdeal.Pay.psumV_apply x0 cls))
  | ⟨2, _⟩ =>
    have e : blk3 x0 x1 (2 : Fin 3) cls = Dice.blkT x1 cls := (if_neg (by decide)).trans (if_neg (by decide))
    show _ = xo (ix3 0 2 cls) + blk3 x0 x1 (2 : Fin 3) cls
    rw [e]
    exact h2.trans (congrArg (xo (ix3 0 2 cls) + ·) (Cert.KernelIdeal.Pay.tsumV_apply x1 cls))

theorem out_A_eq (c : Dev nD) (i : grid0.Coords) (arg2 : Memref sig .tc .vmem S1x16x128x512 .f32) (harg2 : arg2.IsWhole)
    (arg3 : Memref sig .tc .vmem S1x128x512 .i32) (harg3 : arg3.IsWhole) (arg4 : Memref sig .tc .vmem S1x3x16 .f32)
    (harg4 : arg4.IsWhole) (hc0 : cond0_0 i)
    (x0 : Vec Ideal S1x16x128x512 .f32) (x1 : Vec Ideal S1x128x512 .i32) (k : Fin 3) (cls : Fin 16) :
    out0_A_2 (F := Ideal) c i arg2 harg2 arg3 harg3 arg4 harg4 hc0 x0 x1 (ix3 0 k cls)
      = Ideal.ofBits .f32 0x00000000#32 + blk3 x0 x1 k cls := by
  obtain ⟨⟨r0, hr0, h0⟩, h1, h2⟩ := out_A c i arg2 harg2 arg3 harg3 arg4 harg4 hc0 x0 x1 cls
  match k with
  | ⟨0, _⟩ =>
    have e : blk3 x0 x1 (0 : Fin 3) cls = Dice.blkI x0 x1 cls := if_pos rfl
    show _ = _ + blk3 x0 x1 (0 : Fin 3) cls
    rw [e]
    exact h0.trans ((Cert.KernelIdeal.Pay.interV_apply x0 x1 r0 cls).trans (congrArg (· + Dice.blkI x0 x1 cls) hr0))
  | ⟨1, _⟩ =>
    have e : blk3 x0 x1 (1 : Fin 3) cls = Dice.blkP x0 cls := (if_neg (by decide)).trans (if_pos rfl)
    show _ = _ + blk3 x0 x1 (1 : Fin 3) cls
    rw [e]
    exact h1.trans (congrArg (Ideal.ofBits .f32 0x00000000#32 + ·) (Cert.KernelIdeal.Pay.psumV_apply x0 cls))
  | ⟨2, _⟩ =>
    have e : blk3 x0 x1 (2 : Fin 3) cls = Dice.blkT x1 cls := (if_neg (by decide)).trans (if_neg (by decide))
    show _ = _ + blk3 x0 x1 (2 : Fin 3) cls
    rw [e]
    exact h2.trans (congrArg (Ideal.ofBits .f32 0x00000000#32 + ·) (Cert.KernelIdeal.Pay.tsumV_apply x1 cls))

end Cert.KernelIdeal.Pieces

end
-- ==== Proof.KAcc.lean ====
/-
  The accumulation over a batch element's run of four grid points. The result block is reset at the run's first
  point (`t % 4 = 0`) and every later point adds its contribution to what the point before left, so after point
  `t` it holds the zero word plus the contributions of the run's points up to `t`.
-/
import proofs.«169285_j38766374814163_1_alg».proof.Proof.KBlock

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces

variable (m : (ℓ : Loc nD τ sig) → Buf (Elt Ideal) ℓ)

/-- The row and the class of an index of the [1, 3, 16] block. -/
def rowOfIdx (y : S1x3x16.Idx) : Fin 3 := ⟨(y 1).val, (y 1).isLt⟩
def clsOfIdx (y : S1x3x16.Idx) : Fin 16 := ⟨(y 2).val, (y 2).isLt⟩

theorem idx_eq (y : S1x3x16.Idx) : y = ix3 (0 : Fin 1) (rowOfIdx y) (clsOfIdx y) := by
  funext a
  match a with
  | ⟨0, _⟩ => exact Fin.ext (by have h : (y 0).val < 1 := (y 0).isLt; show (y 0).val = 0; omega)
  | ⟨1, _⟩ => rfl
  | ⟨2, _⟩ => rfl

/-- Point `n`'s contribution at a block index (zero past the grid, where it is never used). -/
def addAt (c : Dev nD) (n : ℕ) (y : S1x3x16.Idx) : EReal :=
  if h : n < cfg0.N then blk3 (iblk m c 0 ⟨n, h⟩) (iblk m c 1 ⟨n, h⟩) (rowOfIdx y) (clsOfIdx y) else 0

/-- What a run's first point leaves (any value off those points). -/
def resetAt (c : Dev nD) (n : ℕ) (h : n < cfg0.N) : Vec Ideal S1x3x16 .f32 :=
  if h0 : n % 4 = 0 then
    out0_A_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      ((hcond0_0 ⟨n, h⟩).mpr h0) (iblk m c 0 ⟨n, h⟩) (iblk m c 1 ⟨n, h⟩)
  else fun _ => 0

/-- What a later point of a run leaves over the contents `acc` (the contents kept at a run's first point). -/
def stepAt (c : Dev nD) (n : ℕ) (h : n < cfg0.N) (acc : Vec Ideal S1x3x16 .f32) : Vec Ideal S1x3x16 .f32 :=
  if h0 : n % 4 = 0 then acc else
    out0_B_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (fun hh => h0 ((hcond0_0 ⟨n, h⟩).mp hh)) (iblk m c 0 ⟨n, h⟩) (iblk m c 1 ⟨n, h⟩) acc

theorem outsAt_reset (c : Dev nD) (n : ℕ) (h : n < cfg0.N) (h0 : n % 4 = 0) :
    outsAt0 m c n h = resetAt m c n h := by
  unfold resetAt
  rw [dif_pos h0]
  exact outsAt0_A m c ⟨n, h⟩ h0

theorem outsAt_step (c : Dev nD) (n : ℕ) (h : n + 1 < cfg0.N) (h0 : ¬(n + 1) % 4 = 0) :
    outsAt0 m c (n + 1) h = stepAt m c (n + 1) h (outsAt0 m c n (Nat.lt_of_succ_lt h)) := by
  unfold stepAt
  rw [dif_neg h0]
  exact outsAt0_B m c ⟨n + 1, h⟩ h0

/-- After point `t` the block holds the zero word plus the contributions of its run's points up to `t`. -/
theorem outsAt_eq (c : Dev nD) (t : Fin cfg0.N) (y : S1x3x16.Idx) :
    outsAt0 m c t.val t.isLt y
      = Ideal.ofBits .f32 0x00000000#32 + ∑ s ∈ Finset.range (t.val % 4 + 1), addAt m c (4 * (t.val / 4) + s) y := by
  have hN : cfg0.N = 32 := N_0
  have h' : 4 * (t.val / 4) + t.val % 4 < cfg0.N := by rw [Nat.div_add_mod]; exact t.isLt
  rw [Pipeline.eq_accAt_of_mod (outsAt0 m c) 4 (resetAt m c) (stepAt m c) (outsAt_reset m c) (outsAt_step m c)
    (by decide) t.val t.isLt h']
  refine Pipeline.accAt_add_apply (resetAt m c) (stepAt m c) (fun _ => Ideal.ofBits .f32 0x00000000#32) (addAt m c)
    (4 * (t.val / 4)) 3 ?_ ?_ (t.val % 4) (by omega) h' y
  · intro h i
    have h0 : 4 * (t.val / 4) % 4 = 0 := Nat.mul_mod_right 4 _
    unfold resetAt addAt
    rw [dif_pos h0, dif_pos h]
    conv_lhs => rw [idx_eq i]
    exact out_A_eq c _ _ _ _ _ _ _ _ _ _ _ _
  · intro n h acc i hlo hhi
    have h0 : ¬n % 4 = 0 := by omega
    unfold stepAt addAt
    rw [dif_neg h0, dif_pos h]
    conv_lhs => rw [idx_eq i]
    conv_rhs => rw [idx_eq i]
    exact out_B_eq c _ _ _ _ _ _ _ _ _ _ _ _ _

end Cert.KernelIdeal.Acc

end
-- ==== Proof.KIblk.lean ====
/-
  What the windows read. Grid point `t` is batch element `t / 4`, row block `t % 4`: its logits block is the
  [16, 128, 512] slab of that batch element at rows `128 (t % 4) …`, its targets block the matching [128, 512]
  slab, and its result block is row `t / 4` of the [8, 3, 16] result array.
-/
import proofs.«169285_j38766374814163_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The printed index maps, decided over the grid's 32 points. -/
theorem idx_facts : ∀ t : Fin cfg0.N,
    win0_0.index t (0 : Fin 4) = t.val / 4 ∧ win0_0.index t (1 : Fin 4) = 0
    ∧ win0_0.index t (2 : Fin 4) = t.val % 4 ∧ win0_0.index t (3 : Fin 4) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The row of the whole array that row `r` of point `t`'s block is. -/
def rowAt (t : Fin cfg0.N) (r : Fin 128) : Fin 512 :=
  ⟨128 * (t.val % 4) + r.val, by have := r.isLt; omega⟩

/-- The batch element of point `t`. -/
def batchAt (t : Fin cfg0.N) : Fin 8 :=
  ⟨t.val / 4, by have h : t.val < 32 := lt_of_lt_of_eq t.isLt (show cfg0.N = 32 from N_0); omega⟩

/-- The logits block at point `t`, at class `cc`, row `r`, lane `w`. -/
theorem iblk0_apply (c : Dev nD) (t : Fin cfg0.N) (cc : Fin 16) (r : Fin 128) (w : Fin 512) :
    (iblk m c 0 t : Vec Ideal S1x16x128x512 .f32) (ix4 0 cc r w)
      = m ((c : Thread nD τ).loc main_arg0) (ix4 (batchAt t) cc (rowAt t r) w) := by
  obtain ⟨e0, e1, e2, e3, -⟩ := idx_facts t
  show V m c main_arg0 (((cfg0.win 0).blk t).view.emb (ix4 0 cc r w)) = V m c main_arg0 (ix4 (batchAt t) cc (rowAt t r) w)
  refine congrArg (V m c main_arg0) (funext fun a => Fin.ext ?_)
  match a with
  | ⟨0, _⟩ => show win0_0.index t (0 : Fin 4) * 1 + 1 * 0 = t.val / 4; omega
  | ⟨1, _⟩ => show win0_0.index t (1 : Fin 4) * 16 + 1 * cc.val = cc.val; omega
  | ⟨2, _⟩ => show win0_0.index t (2 : Fin 4) * 128 + 1 * r.val = 128 * (t.val % 4) + r.val; omega
  | ⟨3, _⟩ => show win0_0.index t (3 : Fin 4) * 512 + 1 * w.val = w.val; omega

/-- The targets block at point `t`, at row `r`, lane `w`. -/
theorem iblk1_apply (c : Dev nD) (t : Fin cfg0.N) (r : Fin 128) (w : Fin 512) :
    (iblk m c 1 t : Vec Ideal S1x128x512 .i32) (ix3 0 r w)
      = m ((c : Thread nD τ).loc main_arg1) (ix3 (batchAt t) (rowAt t r) w) := by
  obtain ⟨-, -, -, -, e0, e1, e2, -⟩ := idx_facts t
  show V m c main_arg1 (((cfg0.win 1).blk t).view.emb (ix3 0 r w)) = V m c main_arg1 (ix3 (batchAt t) (rowAt t r) w)
  refine congrArg (V m c main_arg1) (funext fun a => Fin.ext ?_)
  match a with
  | ⟨0, _⟩ => show win0_1.index t (0 : Fin 3) * 1 + 1 * 0 = t.val / 4; omega
  | ⟨1, _⟩ => show win0_1.index t (1 : Fin 3) * 128 + 1 * r.val = 128 * (t.val % 4) + r.val; omega
  | ⟨2, _⟩ => show win0_1.index t (2 : Fin 3) * 512 + 1 * w.val = w.val; omega

end Cert.KernelIdeal.Blocks

end
-- ==== Proof.KFinal.lean ====
/-
  From blocks to the array. Row `b` of the [8, 3, 16] result array is written back once, by the last point
  `4 b + 3` of batch element `b`'s run, and then holds the zero word plus the contributions of the run's four
  points; the eight rows cover the array.
-/
import proofs.«169285_j38766374814163_1_alg».proof.Proof.KAcc
import proofs.«169285_j38766374814163_1_alg».proof.Proof.KIblk

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces Cert.KernelIdeal.Acc Cert.KernelIdeal.Blocks

variable (m : (ℓ : Loc nD τ sig) → Buf (Elt Ideal) ℓ)

/-- The block index `(0, k, cls)` that entry `(b, k, cls)` of the array has within row `b`'s block. -/
def inBlock (i : S8x3x16.Idx) : S1x3x16.Idx := ix3 (0 : Fin 1) (⟨(i 1).val, (i 1).isLt⟩ : Fin 3) (⟨(i 2).val, (i 2).isLt⟩ : Fin 16)

/-- The result array after the region: entry `(b, k, cls)` is the zero word plus the contributions of the points
    `4 b … 4 b + 3`. -/
def outArr (c : Dev nD) : Buf (Elt Ideal) ((c : Thread nD τ).loc main_v0) := fun i =>
  Ideal.ofBits .f32 0x00000000#32 + ∑ s ∈ Finset.range 4, addAt m c (4 * (i 0).val + s) (inBlock i)

/-- An index of the array is in point `t`'s block iff each coordinate is in the block's range on its axis. -/
theorem mem_blk (t : Fin cfg0.N) (i : S8x3x16.Idx) :
    i ∈ ((cfg0.win 2).blk t).view.set ↔ ∀ a : Fin 3, win0_2.index t a * S1x3x16.size a ≤ (i a).val ∧ (i a).val < win0_2.index t a * S1x3x16.size a + S1x3x16.size a := by
  show i ∈ ((View.whole main_v0).slice (win0_2.rect t)).set ↔ _
  rw [View.set_slice_whole, Rect.mem_set_unit]
  exact Iff.rfl

/-- What a writing-back point `t` writes back is block `t` of `outArr`. -/
theorem flushed_eq (c : Dev nD) (t : Fin cfg0.N) (hf : (cfg0.win 2).flush t = true) :
    (dats m 0 c).flushed 2 t = ((cfg0.win 2).blk t).view.read (Elt Ideal) (outArr m c) := by
  have h3 : t.val % 4 = 3 := (flush0_2 t).mp hf
  obtain ⟨-, -, -, -, -, -, -, e0, e1, e2⟩ := idx_facts t
  show (cfg0.win 2).cut (grid0.coords t) ((dats m 0 c).after 2 t) = _
  rw [after0_2]
  funext j
  show outsAt0 m c t.val t.isLt j = outArr m c (((cfg0.win 2).blk t).view.emb j)
  have hb : ((((cfg0.win 2).blk t).view.emb j) 0).val = t.val / 4 := by
    show win0_2.index t (0 : Fin 3) * 1 + 1 * (j 0).val = _
    have : (j 0).val < 1 := (j 0).isLt
    omega
  have hj : inBlock (((cfg0.win 2).blk t).view.emb j) = j := by
    funext a
    apply Fin.ext
    match a with
    | ⟨0, _⟩ => show 0 = (j 0).val; have : (j 0).val < 1 := (j 0).isLt; omega
    | ⟨1, _⟩ => show win0_2.index t (1 : Fin 3) * 3 + 1 * (j 1).val = (j 1).val; omega
    | ⟨2, _⟩ => show win0_2.index t (2 : Fin 3) * 16 + 1 * (j 2).val = (j 2).val; omega
  rw [outsAt_eq, h3]
  unfold outArr
  rw [hj, hb]

/-- The eight writing-back points' blocks cover the array. -/
theorem cover (i : S8x3x16.Idx) :
    ∃ t : Fin cfg0.N, (cfg0.win 2).flush t = true ∧ i ∈ ((cfg0.win 2).blk t).view.set := by
  have hN : cfg0.N = 32 := N_0
  have hi0 : (i 0).val < 8 := (i 0).isLt
  have hi1 : (i 1).val < 3 := (i 1).isLt
  have hi2 : (i 2).val < 16 := (i 2).isLt
  let t : Fin cfg0.N := ⟨4 * (i 0).val + 3, by omega⟩
  have htv : t.val = 4 * (i 0).val + 3 := rfl
  obtain ⟨-, -, -, -, -, -, -, e0, e1, e2⟩ := idx_facts t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 3 ≤ (i 1).val ∧ (i 1).val < win0_2.index t (1 : Fin 3) * 3 + 3; omega
  | ⟨2, _⟩ => show win0_2.index t (2 : Fin 3) * 16 ≤ (i 2).val ∧ (i 2).val < win0_2.index t (2 : Fin 3) * 16 + 16; omega

/-- The result array after the run. -/
theorem final (c : Dev nD) : (dats m 0 c).arrAt 2 cfg0.N = outArr m c :=
  (dats m 0 c).arrAt_eq_of_cover 2 (outArr m c) (flushed_eq m c) (cover)

end Cert.KernelIdeal.Final

end
-- ==== Proof.Tail.lean ====
/-
  The last lines of both programs. From the three per-class totals `I` (weight times indicator), `P` (weight),
  `T` (indicator) both compute the dice score `(2 I + 1) / ((P + T) + 1)` per class and return the mean over the
  sixteen classes of one minus it — the same operations on the same literals, so they are carried as one
  function of the three vectors and never opened.
-/
import proofs.«169285_j38766374814163_1_alg».proof.Proof.Gen.ReferenceIdeal.Read

noncomputable section

namespace Cert.ReferenceIdeal.Tail

open Cert.ReferenceIdeal Cert.ReferenceIdeal.Gen Idealize.ShloMosaic Idealize.ShloMosaic.TcCoe Idealize.SL.Sem

/-- The mean over the classes of one minus the dice score, as the host computes it. -/
def tail (I P T : FVec Ideal S16 .f32) : FVec Ideal S_ .f32 :=
  Host.divf (F := Ideal)
    (Host.reduceAdd (F := Ideal)
      (subf (broadcastInDim S16 ![] bcast_S_S16 (constant (F := Ideal) S_ .f32 0x3F800000#32))
        (Host.divf (F := Ideal)
          (addf (mulf (broadcastInDim S16 ![] bcast_S_S16 (constant (F := Ideal) S_ .f32 0x40000000#32)) I)
            (broadcastInDim S16 ![] bcast_S_S16 (constant (F := Ideal) S_ .f32 0x3F800000#32)))
          (addf (addf P T) (broadcastInDim S16 ![] bcast_S_S16 (constant (F := Ideal) S_ .f32 0x3F800000#32)))))
      (constant (F := Ideal) S_ .f32 0x00000000#32) reducesTo_S16_S_d0 h_S_)
    (constant (F := Ideal) S_ .f32 0x41800000#32)

/-- The reference's result is that function of its three totals. -/
theorem v34_eq (x0 : (⟨S8x16x512x512, .f32⟩ : BufTy).Contents (Elt Ideal)) (x1 : (⟨S8x512x512, .i32⟩ : BufTy).Contents (Elt Ideal)) :
    Read.val_main_v34 (F := Ideal) x0 x1
      = tail (Read.val_main_v20 (F := Ideal) x0 x1) (Read.val_main_v21 (F := Ideal) x0) (Read.val_main_v22 (F := Ideal) x1) := rfl

end Cert.ReferenceIdeal.Tail

end
-- ==== Proof.KTail.lean ====
/-
  The kernel's last lines. The [8, 3, 16] result array is summed over the batch axis into [3, 16]; its three rows,
  each recast as a [16] vector, are the three per-class totals the shared last lines take.
-/
import proofs.«169285_j38766374814163_1_alg».proof.Proof.KFinal
import proofs.«169285_j38766374814163_1_alg».proof.Proof.Tail
import Idealize.ShloMosaic.Lib.StableHlo.Run

noncomputable section

namespace Cert.KernelIdeal.TailK

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Final

variable (m : (ℓ : Loc nD τ sig) → Buf (Elt Ideal) ℓ)

/-- The result array summed over the batch axis. -/
def sumB (O : FVec Ideal S8x3x16 .f32) : FVec Ideal S3x16 .f32 :=
  Host.reduceAdd (F := Ideal) O (constant (F := Ideal) S_ .f32 0x00000000#32) reducesTo_S8x3x16_S3x16_d0 h_S_

/-- Its row `k` as a [16] vector (`off` the slice's offsets `[k, 0]`). -/
def rowVec (O : FVec Ideal S8x3x16 .f32) (off : Fin 2 → ℕ) (hs : S3x16.Slices off S1x16) : FVec Ideal S16 .f32 :=
  shapeCast S16 (extractStridedSlice S1x16 off (sumB O) hs) shapeCasts_S1x16_S16

/-- Entry `cls` of row `k`: the zero word plus the sum over the batch of the array's entries `(b, k, cls)`. -/
theorem rowVec_apply (O : FVec Ideal S8x3x16 .f32) (k : Fin 3) (off : Fin 2 → ℕ) (hoff : off = ![k.val, 0])
    (hs : S3x16.Slices off S1x16) (cls : Fin 16) :
    rowVec O off hs (ix1 cls) = Ideal.ofBits .f32 0x00000000#32 + ∑ b : Fin 8, O (ix3 b k cls) := by
  subst hoff
  unfold rowVec
  refine (shapeCast_apply _ _ (ix1 cls) (ix2 (0 : Fin 1) cls) (by
    rw [Shape.rowMajor_val_one, Shape.rowMajor_val_two]; simp)).trans ?_
  refine (extractStridedSlice_apply _ _ hs (ix2 (0 : Fin 1) cls) (ix2 k cls) (fun a => by
    match a with
    | ⟨0, _⟩ => simp
    | ⟨1, _⟩ => simp)).trans ?_
  unfold sumB
  simp only [Host.reduceAdd, Ideal.hostReduceAdd_def]
  rw [Ideal.hostReduceAdd_single reducesTo_S8x3x16_S3x16_d0 (by decide)]
  refine congrArg₂ (· + ·) rfl (Finset.sum_congr rfl fun b _ => ?_)
  exact congrArg O (funext fun a => Fin.ext (by match a with | ⟨0, _⟩ => rfl | ⟨1, _⟩ => rfl | ⟨2, _⟩ => rfl))

/-- What the region leaves in the result array, as the lines after it read it. -/
theorem arr_eq (c : Dev nD) :
    Pipeline.withArrays (cfgs 0).spec c (V0 m c) (fun w => (dats m 0 c).arrAt w (cfgs 0).N) (Proc.devRef .tc main_v0)
      = outArr m c :=
  (Pipeline.withArrays_arr spec0 launch0.win.arr_inj c _ _ 2).trans (final m c)

set_option maxHeartbeats 1000000 in
/-- The kernel's result: the shared last lines of the three rows of the batch-summed result array. -/
theorem result_eq (c : Dev nD) :
    Pipeline.afterTail₀ cfgs (dats m) 0 (V0 m) [hostOps1] c main_v19
      = Cert.ReferenceIdeal.Tail.tail (rowVec (outArr m c) ![0, 0] slices_S3x16_S1x16_0_0)
          (rowVec (outArr m c) ![1, 0] slices_S3x16_S1x16_1_0) (rowVec (outArr m c) ![2, 0] slices_S3x16_S1x16_2_0) := by
  unfold Pipeline.afterTail₀
  show StableHlo.after hostOps1 _ (Proc.devRef .tc main_v19) = _
  after_results
  rw [arr_eq m c]
  rfl

end Cert.KernelIdeal.TailK

end
-- ==== Proof.SpecSum.lean ====
/-
  Re-grouping the sums. A batch element's 512 rows are read by the kernel as four consecutive blocks of 128
  rows, one grid point each; the sum over the rows is the sum over the four blocks of the sums over a block's
  rows. In the extended reals addition is commutative and associative with `0` neutral, so this needs no
  finiteness.
-/
import proofs.«169285_j38766374814163_1_alg».proof.Proof.Spec

noncomputable section

namespace Dice

open Idealize.ShloMosaic Idealize.ShloMosaic.ValueIdx

/-- The sum over 512 consecutive naturals is the sum over four runs of 128. -/
theorem sum_rows (G : ℕ → EReal) :
    ∑ y : Fin 512, G y.val = ∑ s ∈ Finset.range 4, ∑ r : Fin 128, G (128 * s + r.val) := by
  have h : ∀ s, ∑ r : Fin 128, G (128 * s + r.val) = ∑ r ∈ Finset.range 128, G (128 * s + r) :=
    fun s => (Finset.sum_range (fun r => G (128 * s + r))).symm
  have e : ∑ y : Fin 512, G y.val = ∑ n ∈ Finset.range (128 + (128 + (128 + 128))), G n :=
    (Finset.sum_range (fun n => G n)).symm
  rw [Finset.sum_range_succ, Finset.sum_range_succ, Finset.sum_range_succ, Finset.sum_range_succ,
    Finset.sum_range_zero, zero_add, e, Finset.sum_range_add, Finset.sum_range_add, Finset.sum_range_add,
    h 0, h 1, h 2, h 3, add_assoc, add_assoc]
  refine congrArg₂ (· + ·) (Finset.sum_congr rfl fun r _ => congrArg G (by omega)) ?_
  refine congrArg₂ (· + ·) (Finset.sum_congr rfl fun r _ => congrArg G (by omega)) ?_
  refine congrArg₂ (· + ·) (Finset.sum_congr rfl fun r _ => congrArg G (by omega)) ?_
  exact Finset.sum_congr rfl fun r _ => congrArg G (by omega)

/-- The row of the whole array that row `r` of block `s` is. -/
def rowOf (s : Fin 4) (r : Fin 128) : Fin 512 := ⟨128 * s.val + r.val, by have := s.isLt; have := r.isLt; omega⟩

/-- The same for a function of a row: over the blocks `s` as a range of naturals, the way a run of grid points
    accumulates. -/
theorem sum_rows_fin (g : Fin 512 → EReal) :
    ∑ y : Fin 512, g y
      = ∑ s ∈ Finset.range 4, if hs : s < 4 then ∑ r : Fin 128, g (rowOf ⟨s, hs⟩ r) else 0 := by
  have e := sum_rows (fun n => if h : n < 512 then g ⟨n, h⟩ else 0)
  have l : ∀ y : Fin 512, (fun n => if h : n < 512 then g ⟨n, h⟩ else 0) y.val = g y := fun y => by
    simp only [y.isLt, dite_true]
  simp only [l] at e
  rw [e]
  refine Finset.sum_congr rfl fun s hs => ?_
  have hs4 : s < 4 := Finset.mem_range.mp hs
  rw [dif_pos hs4]
  refine Finset.sum_congr rfl fun r _ => ?_
  have : 128 * s + r.val < 512 := by have := r.isLt; omega
  simp only [this, dite_true, rowOf]

end Dice

end
-- ==== Proof.KBridge.lean ====
/-
  The result array's entries as sums over a batch element's pixels. Point `4 b + s` reads rows
  `128 s … 128 s + 127` of batch element `b`, so its contribution to row `k`, class `cls` is the sum over those rows
  and all lanes of the pixel's term; the four points of the run together sum over all 512 rows.
-/
import proofs.«169285_j38766374814163_1_alg».proof.Proof.KFinal
import proofs.«169285_j38766374814163_1_alg».proof.Proof.SpecSum

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces Cert.KernelIdeal.Acc Cert.KernelIdeal.Blocks

variable (m : (ℓ : Loc nD τ sig) → Buf (Elt Ideal) ℓ)

/-- A pixel's term in row `k` of the result: weight times indicator, weight, indicator. -/
def pix3 (X : Dice.SX.Idx → EReal) (T : Dice.ST.Idx → BitVec 32) (b : Fin 8) (k : Fin 3) (cls : Fin 16) (y w : Fin 512) : EReal :=
  if k = 0 then Dice.P X b cls y w * Dice.Q T b cls y w else if k = 1 then Dice.P X b cls y w else Dice.Q T b cls y w

/-- The logits and the targets as the launch finds them on core `c`. -/
abbrev argX (c : Dev nD) : Dice.SX.Idx → EReal := m ((c : Thread nD τ).loc main_arg0)
abbrev argT (c : Dev nD) : Dice.ST.Idx → BitVec 32 := m ((c : Thread nD τ).loc main_arg1)

/-- Point `4 b + s`'s contribution to row `k`, class `cls`: the sum over its 128 rows and the lanes. -/
theorem addAt_apply (c : Dev nD) (b : Fin 8) (s : ℕ) (hs : s < 4) (k : Fin 3) (cls : Fin 16) :
    addAt m c (4 * b.val + s) (ix3 0 k cls)
      = ∑ r : Fin 128, ∑ w : Fin 512, pix3 (argX m c) (argT m c) b k cls (Dice.rowOf ⟨s, hs⟩ r) w := by
  have hN : cfg0.N = 32 := N_0
  have hb : b.val < 8 := b.isLt
  have hn : 4 * b.val + s < cfg0.N := by omega
  unfold addAt
  rw [dif_pos hn]
  have hk : rowOfIdx (ix3 (0 : Fin 1) k cls) = k := rfl
  have hc : clsOfIdx (ix3 (0 : Fin 1) k cls) = cls := rfl
  rw [hk, hc]
  have hbt : batchAt ⟨4 * b.val + s, hn⟩ = b := Fin.ext (by show (4 * b.val + s) / 4 = b.val; omega)
  have hrt : ∀ r : Fin 128, rowAt ⟨4 * b.val + s, hn⟩ r = Dice.rowOf ⟨s, hs⟩ r := fun r =>
    Fin.ext (by show 128 * ((4 * b.val + s) % 4) + r.val = 128 * s + r.val; have : (4 * b.val + s) % 4 = s := by omega
                rw [this])
  have hP : ∀ (r : Fin 128) (w : Fin 512), Dice.Pb (iblk m c 0 ⟨4 * b.val + s, hn⟩) cls r w
      = Dice.P (argX m c) b cls (Dice.rowOf ⟨s, hs⟩ r) w := fun r w => by
    unfold Dice.Pb Dice.P
    refine congrArg (fun f => Dice.soft f cls) (funext fun kk => ?_)
    rw [iblk0_apply, hbt, hrt]
  have hQ : ∀ (r : Fin 128) (w : Fin 512), Dice.Qb (iblk m c 1 ⟨4 * b.val + s, hn⟩) cls r w
      = Dice.Q (argT m c) b cls (Dice.rowOf ⟨s, hs⟩ r) w := fun r w => by
    unfold Dice.Qb Dice.Q
    rw [iblk1_apply, hbt, hrt]
  unfold blk3 pix3 Dice.blkI Dice.blkP Dice.blkT
  split_ifs <;> simp only [hP, hQ]

/-- Entry `(b, k, cls)` of the result array: the zero word plus the sum over batch element `b`'s pixels. -/
theorem outArr_apply (c : Dev nD) (b : Fin 8) (k : Fin 3) (cls : Fin 16) :
    outArr m c (ix3 b k cls)
      = Ideal.ofBits .f32 0x00000000#32 + ∑ y : Fin 512, ∑ w : Fin 512, pix3 (argX m c) (argT m c) b k cls y w := by
  unfold outArr
  refine congrArg (Ideal.ofBits .f32 0x00000000#32 + ·) ?_
  rw [Dice.sum_rows_fin (fun y => ∑ w : Fin 512, pix3 (argX m c) (argT m c) b k cls y w)]
  refine Finset.sum_congr rfl fun s hs => ?_
  have hs4 : s < 4 := Finset.mem_range.mp hs
  rw [dif_pos hs4]
  have hi : inBlock (ix3 b k cls) = ix3 (0 : Fin 1) k cls := rfl
  rw [hi]
  exact addAt_apply m c b s hs4 k cls

end Cert.KernelIdeal.Final

end
-- ==== Proof.RefSum.lean ====
/-
  A sum over batch, rows and lanes of a [8,16,512,512] array into its sixteen classes, read at a class: the
  indices that drop to class `c` are exactly the `(b, c, y, w)`, so the filtered sum is the triple sum.
-/
import proofs.«169285_j38766374814163_1_alg».proof.Proof.Gen.ReferenceIdeal.Read
import proofs.«169285_j38766374814163_1_alg».proof.Proof.Spec

noncomputable section

namespace Cert.ReferenceIdeal.RefValue

open Cert.ReferenceIdeal Cert.ReferenceIdeal.Gen Idealize.ShloMosaic Idealize.ShloMosaic.ValueIdx

/-- Dropping axes 0, 2, 3 of `(b, c, y, w)` leaves `(c)`. -/
theorem drop_ix4 (b : Fin 8) (c : Fin 16) (y w : Fin 512) :
    reducesTo_S8x16x512x512_S16_d0_2_3.drop (ix4 b c y w) = ix1 c := by
  funext a
  match a with
  | ⟨0, _⟩ => rfl

/-- An index that drops to `(c)` has `c` on its class axis. -/
theorem eq_ix4_of_drop (i : S8x16x512x512.Idx) (c : Fin 16)
    (h : reducesTo_S8x16x512x512_S16_d0_2_3.drop i = ix1 c) : i = ix4 (i 0) c (i 2) (i 3) := by
  have h1 : i 1 = c := by
    have := congrFun h 0
    exact this
  rw [← h1]
  exact eq_ix4 i

/-- `(b, y, w) ↦ (b, c, y, w)`, injective. -/
def clsEmb (c : Fin 16) : Fin 8 × Fin 512 × Fin 512 ↪ S8x16x512x512.Idx :=
  ⟨fun p => ix4 p.1 c p.2.1 p.2.2, fun p q h => by
    have h0 : p.1 = q.1 := congrFun h 0
    have h2 : p.2.1 = q.2.1 := congrFun h 2
    have h3 : p.2.2 = q.2.2 := congrFun h 3
    exact Prod.ext h0 (Prod.ext h2 h3)⟩

theorem filter_drop (c : Fin 16) :
    Finset.univ.filter (fun i : S8x16x512x512.Idx => reducesTo_S8x16x512x512_S16_d0_2_3.drop i = ix1 c)
      = Finset.univ.map (clsEmb c) := by
  ext i
  simp only [Finset.mem_filter, Finset.mem_univ, true_and, Finset.mem_map, clsEmb, Function.Embedding.coeFn_mk]
  exact ⟨fun h => ⟨(i 0, i 2, i 3), (eq_ix4_of_drop i c h).symm⟩, fun ⟨p, hp⟩ => hp ▸ drop_ix4 p.1 c p.2.1 p.2.2⟩

/-- The sum over axes 0, 2, 3 at class `c`: the initial value plus the triple sum over batch, rows and lanes. -/
theorem hostReduceAdd_cls (g : S8x16x512x512.Idx → EReal) (init : EReal) (c : Fin 16) :
    Ideal.hostReduceAdd reducesTo_S8x16x512x512_S16_d0_2_3 g init (ix1 c)
      = init + ∑ b : Fin 8, ∑ y : Fin 512, ∑ w : Fin 512, g (ix4 b c y w) := by
  unfold Ideal.hostReduceAdd
  rw [filter_drop, Finset.sum_map, Fintype.sum_prod_type]
  refine congrArg (init + ·) (Finset.sum_congr rfl fun b _ => ?_)
  rw [Fintype.sum_prod_type]
  rfl

end Cert.ReferenceIdeal.RefValue

end
-- ==== Proof.RefInd.lean ====
/-
  The indicator stage of the reference, read at `(b, c, y, w)`: the compare of the target with 255, the
  replacement of an ignored pixel's target by class 0, the compare with the class number, the two conversions of
  a one-bit word to 0 or 1, and their product — the indicator `Dice.Q`.
-/
import proofs.«169285_j38766374814163_1_alg».proof.Proof.Gen.ReferenceIdeal.Read
import proofs.«169285_j38766374814163_1_alg».proof.Proof.Spec

noncomputable section

namespace Cert.ReferenceIdeal.RefValue

open Cert.ReferenceIdeal Cert.ReferenceIdeal.Gen Idealize.ShloMosaic Idealize.ShloMosaic.ValueIdx

/-- `(b, c, y, w)` with the class axis collapsed and then removed is the pixel `(b, y, w)`. -/
theorem pix_call1 (b : Fin 8) (c : Fin 16) (y w : Fin 512) :
    Read.idx_main_call1_v0 (Read.idx_main_call1_v2 (ix4 b c y w)) = ix3 b y w := by
  funext a
  match a with
  | ⟨0, _⟩ => rfl
  | ⟨1, _⟩ => rfl
  | ⟨2, _⟩ => rfl

theorem pix_v17 (b : Fin 8) (c : Fin 16) (y w : Fin 512) :
    Read.idx_main_v15 (Read.idx_main_v17 (ix4 b c y w)) = ix3 b y w := by
  funext a
  match a with
  | ⟨0, _⟩ => rfl
  | ⟨1, _⟩ => rfl
  | ⟨2, _⟩ => rfl

/-- The compare with 255 at a pixel is the not-ignored bit of its target. -/
theorem v12_pix (x1 : (⟨S8x512x512, .i32⟩ : BufTy).Contents (Elt Ideal)) (j : S8x512x512.Idx) :
    Read.val_main_v12 (F := Ideal) x1 j = Dice.okBit (x1 j) := by
  rw [Read.val_main_v12_apply, Read.val_main_v11_apply, Read.val_main_c_apply]
  rfl

/-- The select at a pixel is its target with an ignored one replaced by class 0. -/
theorem v13_pix (x1 : (⟨S8x512x512, .i32⟩ : BufTy).Contents (Elt Ideal)) (j : S8x512x512.Idx) :
    Read.val_main_v13 (F := Ideal) x1 j = Dice.safe (x1 j) := by
  rw [Read.val_main_v13_apply, v12_pix, Read.val_main_call0_v1_apply, Read.val_main_call0_v0_apply,
    Read.val_main_c_2_apply]
  rfl

/-- The class numbers broadcast over the pixels: at `(b, c, y, w)` the word of `c`. -/
theorem call1_v3_cls (b : Fin 8) (c : Fin 16) (y w : Fin 512) :
    Read.val_main_call1_v3 (F := Ideal) (ix4 b c y w) = BitVec.ofNat 32 c.val := by
  rw [Read.val_main_call1_v3_apply, Read.val_main_call1_v1_apply]

/-- The one-hot value at `(b, c, y, w)`. -/
theorem v14_cls (x1 : (⟨S8x512x512, .i32⟩ : BufTy).Contents (Elt Ideal)) (b : Fin 8) (c : Fin 16) (y w : Fin 512) :
    Read.val_main_v14 (F := Ideal) x1 (ix4 b c y w)
      = Dice.ind (Dice.clsBit (x1 (ix3 b y w)) (BitVec.ofNat 32 c.val)) := by
  rw [Read.val_main_v14_apply, Read.val_main_call1_v4_apply, Read.val_main_call1_v2_apply,
    Read.val_main_call1_v0_apply, pix_call1, v13_pix, call1_v3_cls]
  rfl

/-- The not-ignored value broadcast over the classes at `(b, c, y, w)`. -/
theorem v17_cls (x1 : (⟨S8x512x512, .i32⟩ : BufTy).Contents (Elt Ideal)) (b : Fin 8) (c : Fin 16) (y w : Fin 512) :
    Read.val_main_v17 (F := Ideal) x1 (ix4 b c y w) = Dice.ind (Dice.okBit (x1 (ix3 b y w))) := by
  rw [Read.val_main_v17_apply, Read.val_main_v16_apply, Read.val_main_v15_apply, pix_v17, v12_pix]
  rfl

/-- The indicator stage at `(b, c, y, w)` is the indicator of class `c` at pixel `(b, y, w)`. -/
theorem v18_cls (x1 : (⟨S8x512x512, .i32⟩ : BufTy).Contents (Elt Ideal)) (b : Fin 8) (c : Fin 16) (y w : Fin 512) :
    Read.val_main_v18 (F := Ideal) x1 (ix4 b c y w) = Dice.Q x1 b c y w := by
  rw [Read.val_main_v18_apply, v14_cls, v17_cls]
  rfl

end Cert.ReferenceIdeal.RefValue

end
-- ==== Proof.RefSoft.lean ====
/-
  The softmax stage of the reference, read at `(b, c, y, w)`: the largest of the pixel's sixteen scores (a fold of
  `max` from the word of `-∞`; the further maximum with that same word changes nothing, since the fold is already at
  least its starting value), the exponentials of the scores less it, their sum over the classes, and the quotient —
  the softmax weight `Dice.P`.
-/
import proofs.«169285_j38766374814163_1_alg».proof.Proof.Gen.ReferenceIdeal.Read
import proofs.«169285_j38766374814163_1_alg».proof.Proof.Spec

noncomputable section

namespace Cert.ReferenceIdeal.RefValue

open Cert.ReferenceIdeal Cert.ReferenceIdeal.Gen Idealize.ShloMosaic Idealize.ShloMosaic.ValueIdx

/-- `(b, c, y, w)` with the class axis collapsed and then removed is the pixel `(b, y, w)`. -/
theorem pix_v4 (b : Fin 8) (c : Fin 16) (y w : Fin 512) :
    Read.idx_main_v3 (Read.idx_main_v4 (ix4 b c y w)) = ix3 b y w := by
  funext a
  match a with
  | ⟨0, _⟩ => rfl
  | ⟨1, _⟩ => rfl
  | ⟨2, _⟩ => rfl

theorem pix_v9 (b : Fin 8) (c : Fin 16) (y w : Fin 512) :
    Read.idx_main_v8 (Read.idx_main_v9 (ix4 b c y w)) = ix3 b y w := by
  funext a
  match a with
  | ⟨0, _⟩ => rfl
  | ⟨1, _⟩ => rfl
  | ⟨2, _⟩ => rfl

/-- The pixel `(b, y, w)` with class `k` put back is `(b, k, y, w)`. -/
theorem cls_v7 (b : Fin 8) (y w : Fin 512) (k : Fin 16) : Read.idx_main_v7 (ix3 b y w) k = ix4 b k y w := by
  funext a
  match a with
  | ⟨0, _⟩ => rfl
  | ⟨1, _⟩ => rfl
  | ⟨2, _⟩ => rfl
  | ⟨3, _⟩ => rfl

theorem lift_pix (h : S8x16x512x512.Reduces [1] S8x512x512) (b : Fin 8) (y w : Fin 512)
    (k : Fin (S8x16x512x512.size 1)) : h.lift (ix3 b y w) k = ix4 b (⟨k.val, k.isLt⟩ : Fin 16) y w := by
  funext a
  apply Fin.ext
  match a with
  | ⟨0, _⟩ => rfl
  | ⟨1, _⟩ => rfl
  | ⟨2, _⟩ => rfl
  | ⟨3, _⟩ => rfl

/-- A maximum over the class axis from the word of `-∞`, at a pixel: the largest of its sixteen scores. -/
theorem hostReduce_max_pix (x : FVec Ideal S8x16x512x512 .f32) (h' : S8x16x512x512.ReducesTo [1] S8x512x512)
    (h : S8x16x512x512.Reduces [1] S8x512x512) (hu : 0 < S_.numel) (b : Fin 8) (y w : Fin 512) :
    Host.reduce FloatOps.maximumf x (constant S_ .f32 0xFF800000#32) h' hu (ix3 b y w)
      = Dice.top (fun k => x (ix4 b k y w)) := by
  rw [Host.reduce_eq_fold_single FloatOps.maximumf x _ h' h hu]
  have hf : (x ∘ h.lift (ix3 b y w)) = fun k : Fin 16 => x (ix4 b k y w) :=
    funext fun k => congrArg x (lift_pix h b y w k)
  exact congrArg (fun f => Finset.fold max (Ideal.ofBits .f32 0xFF800000#32) f (Finset.univ : Finset (Fin 16))) hf

/-- The maximum over the class axis at a pixel is the largest of its sixteen scores. -/
theorem v0_pix (x0 : (⟨S8x16x512x512, .f32⟩ : BufTy).Contents (Elt Ideal)) (b : Fin 8) (y w : Fin 512) :
    Read.val_main_v0 (F := Ideal) x0 (ix3 b y w) = Dice.top (fun k => x0 (ix4 b k y w)) :=
  hostReduce_max_pix x0 reducesTo_S8x16x512x512_S8x512x512_d1 (by decide) h_S_ b y w

/-- The further maximum with the starting word leaves the largest score. -/
theorem v2_pix (x0 : (⟨S8x16x512x512, .f32⟩ : BufTy).Contents (Elt Ideal)) (b : Fin 8) (y w : Fin 512) :
    Read.val_main_v2 (F := Ideal) x0 (ix3 b y w) = Dice.top (fun k => x0 (ix4 b k y w)) := by
  rw [Read.val_main_v2_apply, Read.val_main_v1_apply, Read.val_main_cst_0_apply, v0_pix]
  exact max_eq_right ((Finset.le_fold_max _).mpr (Or.inl le_rfl))

/-- The largest score broadcast over the classes at `(b, c, y, w)`. -/
theorem v4_cls (x0 : (⟨S8x16x512x512, .f32⟩ : BufTy).Contents (Elt Ideal)) (b : Fin 8) (c : Fin 16) (y w : Fin 512) :
    Read.val_main_v4 (F := Ideal) x0 (ix4 b c y w) = Dice.top (fun k => x0 (ix4 b k y w)) := by
  rw [Read.val_main_v4_apply, Read.val_main_v3_apply, pix_v4, v2_pix]

/-- The exponential of a score less the pixel's largest. -/
theorem v6_cls (x0 : (⟨S8x16x512x512, .f32⟩ : BufTy).Contents (Elt Ideal)) (b : Fin 8) (c : Fin 16) (y w : Fin 512) :
    Read.val_main_v6 (F := Ideal) x0 (ix4 b c y w)
      = Ideal.exp (x0 (ix4 b c y w) - Dice.top (fun k => x0 (ix4 b k y w))) := by
  rw [Read.val_main_v6_apply, Read.val_main_v5_apply, v4_cls]
  rfl

/-- The sum of those exponentials over the classes at a pixel. -/
theorem v7_pix (x0 : (⟨S8x16x512x512, .f32⟩ : BufTy).Contents (Elt Ideal)) (b : Fin 8) (y w : Fin 512) :
    Read.val_main_v7 (F := Ideal) x0 (ix3 b y w)
      = ∑ k : Fin 16, Ideal.exp (x0 (ix4 b k y w) - Dice.top (fun k' => x0 (ix4 b k' y w))) := by
  rw [Read.val_main_v7_apply, Read.val_main_cst_1_apply]
  refine (congrArg (· + _) Ideal.ofBits_zero_f32).trans ?_
  rw [zero_add]
  refine Finset.sum_congr rfl fun k _ => ?_
  rw [cls_v7, v6_cls]

/-- That sum broadcast over the classes at `(b, c, y, w)`. -/
theorem v9_cls (x0 : (⟨S8x16x512x512, .f32⟩ : BufTy).Contents (Elt Ideal)) (b : Fin 8) (c : Fin 16) (y w : Fin 512) :
    Read.val_main_v9 (F := Ideal) x0 (ix4 b c y w)
      = ∑ k : Fin 16, Ideal.exp (x0 (ix4 b k y w) - Dice.top (fun k' => x0 (ix4 b k' y w))) := by
  rw [Read.val_main_v9_apply, Read.val_main_v8_apply, pix_v9, v7_pix]

/-- The softmax stage at `(b, c, y, w)` is the softmax weight of class `c` at pixel `(b, y, w)`. -/
theorem v10_cls (x0 : (⟨S8x16x512x512, .f32⟩ : BufTy).Contents (Elt Ideal)) (b : Fin 8) (c : Fin 16) (y w : Fin 512) :
    Read.val_main_v10 (F := Ideal) x0 (ix4 b c y w) = Dice.P x0 b c y w := by
  rw [Read.val_main_v10_apply, v6_cls, v9_cls]
  rfl

end Cert.ReferenceIdeal.RefValue

end
-- ==== Proof.RefSide.lean ====
/-
  The reference's three per-class sums. Each sums a [8,16,512,512] array over batch, rows and lanes into the
  sixteen classes; at class `c` that is the initial zero plus the triple sum of the array at `(b, c, y, w)`, and
  the array there is the softmax weight, the indicator, or their product.
-/
import proofs.«169285_j38766374814163_1_alg».proof.Proof.Gen.ReferenceIdeal.Read
import proofs.«169285_j38766374814163_1_alg».proof.Proof.Spec
import proofs.«169285_j38766374814163_1_alg».proof.Proof.RefSum
import proofs.«169285_j38766374814163_1_alg».proof.Proof.RefInd
import proofs.«169285_j38766374814163_1_alg».proof.Proof.RefSoft

noncomputable section

namespace Cert.ReferenceIdeal.RefValue

open Cert.ReferenceIdeal Cert.ReferenceIdeal.Gen Idealize.ShloMosaic Idealize.ShloMosaic.ValueIdx

/-- The sum of weight times indicator at class `c`. -/
theorem v20_apply (x0 : (⟨S8x16x512x512, .f32⟩ : BufTy).Contents (Elt Ideal))
    (x1 : (⟨S8x512x512, .i32⟩ : BufTy).Contents (Elt Ideal)) (c : Fin 16) :
    Read.val_main_v20 (F := Ideal) x0 x1 (ix1 c) = Ideal.ofBits .f32 0x00000000#32 + Dice.totI x0 x1 c := by
  unfold Read.val_main_v20
  simp only [Host.reduceAdd, Ideal.hostReduceAdd_def]
  refine (hostReduceAdd_cls _ _ c).trans ?_
  refine congrArg (Ideal.ofBits .f32 0x00000000#32 + ·) ?_
  unfold Dice.totI
  refine Finset.sum_congr rfl fun b _ => Finset.sum_congr rfl fun y _ => Finset.sum_congr rfl fun w _ => ?_
  rw [Read.val_main_v19_apply, v10_cls, v18_cls]
  rfl

/-- The sum of the weight at class `c`. -/
theorem v21_apply (x0 : (⟨S8x16x512x512, .f32⟩ : BufTy).Contents (Elt Ideal)) (c : Fin 16) :
    Read.val_main_v21 (F := Ideal) x0 (ix1 c) = Ideal.ofBits .f32 0x00000000#32 + Dice.totP x0 c := by
  unfold Read.val_main_v21
  simp only [Host.reduceAdd, Ideal.hostReduceAdd_def]
  refine (hostReduceAdd_cls _ _ c).trans ?_
  refine congrArg (Ideal.ofBits .f32 0x00000000#32 + ·) ?_
  unfold Dice.totP
  refine Finset.sum_congr rfl fun b _ => Finset.sum_congr rfl fun y _ => Finset.sum_congr rfl fun w _ => ?_
  rw [v10_cls]

/-- The sum of the indicator at class `c`. -/
theorem v22_apply (x1 : (⟨S8x512x512, .i32⟩ : BufTy).Contents (Elt Ideal)) (c : Fin 16) :
    Read.val_main_v22 (F := Ideal) x1 (ix1 c) = Ideal.ofBits .f32 0x00000000#32 + Dice.totT x1 c := by
  unfold Read.val_main_v22
  simp only [Host.reduceAdd, Ideal.hostReduceAdd_def]
  refine (hostReduceAdd_cls _ _ c).trans ?_
  refine congrArg (Ideal.ofBits .f32 0x00000000#32 + ·) ?_
  unfold Dice.totT
  refine Finset.sum_congr rfl fun b _ => Finset.sum_congr rfl fun y _ => Finset.sum_congr rfl fun w _ => ?_
  rw [v18_cls]

end Cert.ReferenceIdeal.RefValue

end
-- ==== Proof.KValue.lean ====
/-
  The kernel's run, read. Its result is the shared last lines applied to three vectors whose entry `cls` is the
  zero word plus the sum over the batch of (the zero word plus the sum over a batch element's pixels); the
  reference's three totals are the zero word plus the sum over all pixels. With `0` neutral these agree, so the
  kernel's result is the reference's function of the same arguments.
-/
import proofs.«169285_j38766374814163_1_alg».proof.Proof.KTail
import proofs.«169285_j38766374814163_1_alg».proof.Proof.KBridge
import proofs.«169285_j38766374814163_1_alg».proof.Proof.RefSide

noncomputable section

namespace Cert.KernelIdeal.ValueK

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Final Cert.KernelIdeal.TailK
open Cert.ReferenceIdeal.RefValue

variable (m : (ℓ : Loc nD τ sig) → Buf (Elt Ideal) ℓ) (ρ : Dev nD → PrngReg)

/-- Entry `cls` of row `k` of the batch-summed result array: the zero word plus the sum over every pixel. -/
theorem row_apply (c : Dev nD) (k : Fin 3) (off : Fin 2 → ℕ) (hoff : off = ![k.val, 0]) (hs : S3x16.Slices off S1x16) (cls : Fin 16) :
    rowVec (outArr m c) off hs (ix1 cls)
      = Ideal.ofBits .f32 0x00000000#32 + ∑ b : Fin 8, ∑ y : Fin 512, ∑ w : Fin 512, pix3 (argX m c) (argT m c) b k cls y w := by
  rw [rowVec_apply (outArr m c) k off hoff hs cls]
  refine congrArg (Ideal.ofBits .f32 0x00000000#32 + ·) (Finset.sum_congr rfl fun b _ => ?_)
  rw [outArr_apply, Ideal.ofBits_zero_f32, zero_add]

/-- The three rows are the reference's three totals of the same arguments. -/
theorem row0_eq (c : Dev nD) :
    rowVec (outArr m c) ![0, 0] slices_S3x16_S1x16_0_0 = Cert.ReferenceIdeal.Read.val_main_v20 (F := Ideal) (argX m c) (argT m c) := by
  funext j
  obtain ⟨cls, rfl⟩ : ∃ cls : Fin 16, j = ix1 cls := ⟨j 0, eq_ix1 j⟩
  refine (row_apply m c 0 ![0, 0] rfl slices_S3x16_S1x16_0_0 cls).trans ?_
  refine Eq.trans ?_ (v20_apply (argX m c) (argT m c) cls).symm
  unfold Dice.totI pix3
  simp only [if_true]

theorem row1_eq (c : Dev nD) :
    rowVec (outArr m c) ![1, 0] slices_S3x16_S1x16_1_0 = Cert.ReferenceIdeal.Read.val_main_v21 (F := Ideal) (argX m c) := by
  funext j
  obtain ⟨cls, rfl⟩ : ∃ cls : Fin 16, j = ix1 cls := ⟨j 0, eq_ix1 j⟩
  refine (row_apply m c 1 ![1, 0] rfl slices_S3x16_S1x16_1_0 cls).trans ?_
  refine Eq.trans ?_ (v21_apply (argX m c) cls).symm
  unfold Dice.totP pix3
  simp only [show ¬((1 : Fin 3) = 0) from by decide, if_false, if_true]

theorem row2_eq (c : Dev nD) :
    rowVec (outArr m c) ![2, 0] slices_S3x16_S1x16_2_0 = Cert.ReferenceIdeal.Read.val_main_v22 (F := Ideal) (argT m c) := by
  funext j
  obtain ⟨cls, rfl⟩ : ∃ cls : Fin 16, j = ix1 cls := ⟨j 0, eq_ix1 j⟩
  refine (row_apply m c 2 ![2, 0] rfl slices_S3x16_S1x16_2_0 cls).trans ?_
  refine Eq.trans ?_ (v22_apply (argT m c) cls).symm
  unfold Dice.totT pix3
  simp only [show ¬((2 : Fin 3) = 0) from by decide, show ¬((2 : Fin 3) = 1) from by decide, if_false]

/-- The kernel's result as a function of its arguments: the reference's. -/
abbrev result (c : Dev nD) : Buf (Elt Ideal) ((c.tc : Thread nD τ).loc main_v19) :=
  Cert.ReferenceIdeal.Read.val_main_v34 (F := Ideal) (argX m c) (argT m c)

theorem result_eq' (c : Dev nD) :
    Pipeline.afterTail₀ cfgs (dats m) 0 (V0 m) [hostOps1] c main_v19 = result m c := by
  rw [TailK.result_eq m c, row0_eq, row1_eq, row2_eq]
  exact (Cert.ReferenceIdeal.Tail.v34_eq _ _).symm

/-- The result buffer is none of the region's arrays. -/
theorem v19_rest : main_v19 ∈ Pipeline.restRefs sig (cfgs 0).spec :=
  Pipeline.mem_restRefs_of main_v19 rfl (fun w => by fin_cases w <;> decide)

/-- The run, read: the result at the reference's function of the arguments, the arguments unchanged. -/
theorem run : θ_run defs (onTc (τ := τ) (main (F := Ideal))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v19 v19_rest).trans (result_eq' m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ValueK

end
-- ==== Proof.lean ====
/-
  The dice loss of a [8, 16, 512, 512] batch of logits against [8, 512, 512] integer targets: the softmax over the
  sixteen classes, the one-hot indicator of the target class (zero at the ignored label 255), the three per-class
  totals over every pixel — weight times indicator, weight, indicator —, the dice score
  `(2 I + 1) / ((P + T) + 1)` per class and the mean over the classes of one minus it.

  The kernel computes the three totals block by block: a grid point is a batch element and a block of 128 rows;
  it sums its block's pixels and adds the three sixteen-entry vectors into the batch element's row of a
  [8, 3, 16] array, reset at the run's first point; the lines after the kernel sum that array over the batch and
  finish with the same last lines as the reference. Over the extended reals the two ways of grouping the sum are
  equal because addition is commutative and associative with `0` neutral: no finiteness of the inputs is used.
  The ideal pass rewrote nothing, so `preserves` is trivial; the three frames are the generated frame runs.
-/
import proofs.«169285_j38766374814163_1_alg».proof.Defs
import proofs.«169285_j38766374814163_1_alg».proof.Proof.Gen.Kernel
import proofs.«169285_j38766374814163_1_alg».proof.Proof.Gen.Kernel.Skeleton
import proofs.«169285_j38766374814163_1_alg».proof.Proof.Gen.Kernel.Launch
import proofs.«169285_j38766374814163_1_alg».proof.Proof.Gen.Kernel.Points
import proofs.«169285_j38766374814163_1_alg».proof.Proof.Gen.Kernel.Frame
import proofs.«169285_j38766374814163_1_alg».proof.Proof.Gen.KernelIdeal
import proofs.«169285_j38766374814163_1_alg».proof.Proof.Gen.KernelIdeal.Skeleton
import proofs.«169285_j38766374814163_1_alg».proof.Proof.Gen.KernelIdeal.Launch
import proofs.«169285_j38766374814163_1_alg».proof.Proof.Gen.KernelIdeal.Points
import proofs.«169285_j38766374814163_1_alg».proof.Proof.Gen.KernelIdeal.Frame
import proofs.«169285_j38766374814163_1_alg».proof.Proof.Gen.ReferenceIdeal
import proofs.«169285_j38766374814163_1_alg».proof.Proof.Gen.ReferenceIdeal.Run
import proofs.«169285_j38766374814163_1_alg».proof.Proof.Gen.ReferenceIdeal.Read
import proofs.«169285_j38766374814163_1_alg».proof.Proof.Gen.Pre_finite_inputs
import proofs.«169285_j38766374814163_1_alg».proof.Proof.KValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal values the kernel's result is the reference's function of the kernel's arguments, and the
    reference's is that function of its own, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ValueK.result m c, Cert.KernelIdeal.ValueK.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
